-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100000x1 : Shape := ⟨3, ![26, 100000, 1]⟩
abbrev S26x100000x64 : Shape := ⟨3, ![26, 100000, 64]⟩
abbrev S13x1 : Shape := ⟨2, ![13, 1]⟩
abbrev S1 : Shape := ⟨1, ![1]⟩
abbrev S1x1 : Shape := ⟨2, ![1, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x64 : S_.BroadcastsInDim S26x100000x64 (![] : Fin 0 → Fin S26x100000x64.rank)
  reducesTo_S26x100000x64_S_d0_1_2 : S26x100000x64.ReducesTo [0, 1, 2] S_
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg8 : FVec F S1x1 .f32) (main_arg9 : FVec F S1 .f32) (main_v33 : IVec S_ 1) : IVec S_ 1 :=
  let main_v34 : FVec F S1x1 .f32 := Host.absf main_arg8
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S1 .f32) (main_arg6 : FVec F S1x1 .f32) (main_arg7 : FVec F S1 .f32) (main_arg8 : FVec F S1x1 .f32) (main_arg9 : FVec F S1 .f32) (main_v13 : IVec S_ 1) (main_v16 : IVec S13x1 1) : IVec S_ 1 :=
  let main_c_5 : IVec S_ 1 := constantI S_ 1 1#1
  let main_v17 : IVec S_ 1 := (fun x v => Host.reduce IntOp.andi x v reducesTo_S13x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg6
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : IVec S16384x26 32) (main_arg1 : FVec F S16384x13 .f32) (main_arg2 : FVec F S26x100000x1 .f32) (main_arg3 : FVec F S26x100000x64 .f32) (main_arg4 : FVec F S13x1 .f32) (main_arg5 : FVec F S1 .f32) (main_arg6 : FVec F S1x1 .f32) (main_arg7 : FVec F S1 .f32) (main_arg8 : FVec F S1x1 .f32) (main_arg9 : FVec F S1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x1 .f32 := Host.absf main_arg2
  let main_cst_0 : FVec F S_ .f32 := constant S_ .f32 0x7F800000#32
  let main_v5 : FVec F S26x100000x1 .f32 := broadcastInDim S26x100000x1 ![] bcast_S_S26x100000x1 main_cst_0
  let main_v6 : IVec S26x100000x1 1 := cmpf .olt main_v4 main_v5
  let main_c_1 : IVec S_ 1 := constantI S_ 1 1#1
  let main_v7 : IVec S_ 1 := (fun x v => Host.reduce IntOp.andi x v reducesTo_S26x100000x1_S_d0_1_2 h_S_) main_v6 main_c_1
  let main_v8 : IVec S_ 1 := andi main_v3 main_v7
  let main_v9 : FVec F S26x100000x64 .f32 := Host.absf main_arg3
  let main_cst_2 : FVec F S_ .f32 := constant S_ .f32 0x7F800000#32
  let main_v10 : FVec F S26x100000x64 .f32 := broadcastInDim S26x100000x64 ![] bcast_S_S26x100000x64 main_cst_2
  let main_v11 : IVec S26x100000x64 1 := cmpf .olt main_v9 main_v10
  let main_c_3 : IVec S_ 1 := constantI S_ 1 1#1
  let main_v12 : IVec S_ 1 := (fun x v => Host.reduce IntOp.andi x v reducesTo_S26x100000x64_S_d0_1_2 h_S_) main_v11 main_c_3
  let main_v13 : IVec S_ 1 := andi main_v8 main_v12
  let main_v14 : FVec F S13x1 .f32 := Host.absf main_arg4
  let main_cst_4 : FVec F S_ .f32 := constant S_ .f32 0x7F800000#32
  let main_v15 : FVec F S13x1 .f32 := broadcastInDim S13x1 ![] bcast_S_S13x1 main_cst_4
  let main_v16 : IVec S13x1 1 := cmpf .olt main_v14 main_v15
  fn_part1 (F := F) main_arg5 main_arg6 main_arg7 main_arg8 main_arg9 main_v13 main_v16
-- ==== Kernel.lean ====
abbrev S16384x26 : Shape := ⟨2, ![16384, 26]⟩
abbrev S16384x13 : Shape := ⟨2, ![16384, 13]⟩
abbrev S26x100000x1 : Shape := ⟨3, ![26, 100000, 1]⟩
abbrev S26x100000x64 : Shape := ⟨3, ![26, 100000, 64]⟩
abbrev S13x1 : Shape := ⟨2, ![13, 1]⟩
abbrev S1 : Shape := ⟨1, ![1]⟩
abbrev S1x1 : Shape := ⟨2, ![1, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x3 : Shape := ⟨3, ![16384, 26, 3]⟩
abbrev S16384x26x2 : Shape := ⟨3, ![16384, 26, 2]⟩
abbrev S16384x26x64 : Shape := ⟨3, ![16384, 26, 64]⟩
abbrev S16384x13x128 : Shape := ⟨3, ![16384, 13, 128]⟩
abbrev S1x13 : Shape := ⟨2, ![1, 13]⟩
abbrev S16384x1 : Shape := ⟨2, ![16384, 1]⟩
abbrev S512x26 : Shape := ⟨2, ![512, 26]⟩
abbrev S512x13x128 : Shape := ⟨3, ![512, 13, 128]⟩
abbrev S512x13 : Shape := ⟨2, ![512, 13]⟩
abbrev S512x1 : Shape := ⟨2, ![512, 1]⟩
abbrev S512 : Shape := ⟨1, ![512]⟩
abbrev S512x128 : Shape := ⟨2, ![512, 128]⟩
abbrev S512x64 : Shape := ⟨2, ![512, 64]⟩

abbrev nBuf : Space → Nat
  | .hbm => 61
  | .vmem => 16
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x64, .f32⟩
  | .hbm, ⟨4, _⟩ => ⟨S13x1, .f32⟩
  | .hbm, ⟨5, _⟩ => ⟨S1, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S_, .i32⟩
  | .hbm, ⟨13, _⟩ => ⟨S1x26, .i32⟩
  | .hbm, ⟨14, _⟩ => ⟨S1x26, .i1⟩
  | .hbm, ⟨15, _⟩ => ⟨S_, .i32⟩
  | .hbm, ⟨16, _⟩ => ⟨S1x26, .i32⟩
  | .hbm, ⟨17, _⟩ => ⟨S1x26, .i32⟩
  | .hbm, ⟨18, _⟩ => ⟨S1x26, .i32⟩
  | .hbm, ⟨19, _⟩ => ⟨S_, .i32⟩
  | .hbm, ⟨20, _⟩ => ⟨S16384x26, .i32⟩
  | .hbm, ⟨21, _⟩ => ⟨S16384x26, .i1⟩
  | .hbm, ⟨22, _⟩ => ⟨S_, .i32⟩
  | .hbm, ⟨23, _⟩ => ⟨S16384x26, .i32⟩
  | .hbm, ⟨24, _⟩ => ⟨S16384x26, .i32⟩
  | .hbm, ⟨25, _⟩ => ⟨S16384x26, .i32⟩
  | .hbm, ⟨26, _⟩ => ⟨S16384x26, .i32⟩
  | .hbm, ⟨27, _⟩ => ⟨S_, .i32⟩
  | .hbm, ⟨28, _⟩ => ⟨S16384x26, .i32⟩
  | .hbm, ⟨29, _⟩ => ⟨S16384x26, .i32⟩
  | .hbm, ⟨30, _⟩ => ⟨S16384x26x1, .i32⟩
  | .hbm, ⟨31, _⟩ => ⟨S16384x26x1, .i32⟩
  | .hbm, ⟨32, _⟩ => ⟨S16384x26x1, .i32⟩
  | .hbm, ⟨33, _⟩ => ⟨S16384x26x3, .i32⟩
  | .hbm, ⟨34, _⟩ => ⟨S16384x26, .f32⟩
  | .hbm, ⟨35, _⟩ => ⟨S_, .i32⟩
  | .hbm, ⟨36, _⟩ => ⟨S1x26, .i32⟩
  | .hbm, ⟨37, _⟩ => ⟨S1x26, .i1⟩
  | .hbm, ⟨38, _⟩ => ⟨S_, .i32⟩
  | .hbm, ⟨39, _⟩ => ⟨S1x26, .i32⟩
  | .hbm, ⟨40, _⟩ => ⟨S1x26, .i32⟩
  | .hbm, ⟨41, _⟩ => ⟨S1x26, .i32⟩
  | .hbm, ⟨42, _⟩ => ⟨S_, .i32⟩
  | .hbm, ⟨43, _⟩ => ⟨S16384x26, .i32⟩
  | .hbm, ⟨44, _⟩ => ⟨S16384x26, .i1⟩
  | .hbm, ⟨45, _⟩ => ⟨S_, .i32⟩
  | .hbm, ⟨46, _⟩ => ⟨S16384x26, .i32⟩
  | .hbm, ⟨47, _⟩ => ⟨S16384x26, .i32⟩
  | .hbm, ⟨48, _⟩ => ⟨S16384x26, .i32⟩
  | .hbm, ⟨49, _⟩ => ⟨S16384x26, .i32⟩
  | .hbm, ⟨50, _⟩ => ⟨S16384x26x1, .i32⟩
  | .hbm, ⟨51, _⟩ => ⟨S16384x26x1, .i32⟩
  | .hbm, ⟨52, _⟩ => ⟨S16384x26x2, .i32⟩
  | .hbm, ⟨53, _⟩ => ⟨S16384x26x64, .f32⟩
  | .hbm, ⟨54, _⟩ => ⟨S16384x13x128, .f32⟩
  | .hbm, ⟨55, _⟩ => ⟨S1x13, .f32⟩
  | .hbm, ⟨56, _⟩ => ⟨S1x1, .f32⟩
  | .hbm, ⟨57, _⟩ => ⟨S1x1, .f32⟩
  | .hbm, ⟨58, _⟩ => ⟨S1x1, .f32⟩
  | .hbm, ⟨59, _⟩ => ⟨S16384x1, .f32⟩
  | .hbm, ⟨60, _⟩ => ⟨S16384x1, .f32⟩
  | .local _ .vmem, ⟨0, _⟩ => ⟨S512x26, .f32⟩
  | .local _ .vmem, ⟨1, _⟩ => ⟨S512x26, .f32⟩
  | .local _ .vmem, ⟨2, _⟩ => ⟨S512x13x128, .f32⟩
  | .local _ .vmem, ⟨3, _⟩ => ⟨S512x13x128, .f32⟩
  | .local _ .vmem, ⟨4, _⟩ => ⟨S512x13, .f32⟩
  | .local _ .vmem, ⟨5, _⟩ => ⟨S512x13, .f32⟩
  | .local _ .vmem, ⟨6, _⟩ => ⟨S1x13, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x13x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x1_S16384x26x3_d2 : Shape.Concatenates [S16384x26x1, S16384x26x1, S16384x26x1] S16384x26x3 2
  concatenates_S16384x26x1_S16384x26x1_S16384x26x2_d2 : Shape.Concatenates [S16384x26x1, S16384x26x1] S16384x26x2 2
  shapeCasts_S16384x26x64_S16384x13x128 : S16384x26x64.ShapeCasts S16384x13x128
  shapeCasts_S13x1_S1x13 : S13x1.ShapeCasts S1x13
  shapeCasts_S1_S1x1 : S1.ShapeCasts S1x1
  inb_S512x13_S512x13_0_0 : ∀ a, (![0, 0] : Fin 2 → Nat) a + S512x13.size a ≤ S512x13.size a
  h_S512x13 : 0 < S512x13.numel
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S512x13 : S1x13.Broadcasts S512x13
  reduces_S512x13_S512 : S512x13.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x26_S512x26_0_0 : ∀ a, (![0, 0] : Fin 2 → Nat) a + S512x26.size a ≤ S512x26.size a
  h_S512x26 : 0 < S512x26.numel
  shapeCasts_S512x26_S512x26 : S512x26.ShapeCasts S512x26
  reduces_S512x26_S512 : S512x26.Reduces [1] S512
  inb_S512x13x128_S512x13x128_0_0_0 : ∀ a, (![0, 0, 0] : Fin 3 → Nat) a + S512x13x128.size a ≤ S512x13x128.size a
  h_S512x13x128 : 0 < S512x13x128.numel
  shapeCasts_S512x13x128_S512x13x128 : S512x13x128.ShapeCasts S512x13x128
  reduces_S512x13x128_S512x128 : S512x13x128.Reduces [1] S512x128
  slices_S512x128_o0_0_S512x64 : S512x128.Slices ![0, 0] S512x64
  slices_S512x128_o0_64_S512x64 : S512x128.Slices ![0, 64] S512x64
  reduces_S512x64_S512 : S512x64.Reduces [1] S512
  inb_S512x1_S512x1_0_0 : ∀ a, (![0, 0] : Fin 2 → Nat) a + S512x1.size a ≤ S512x1.size a
  h_S512x1 : 0 < S512x1.numel
  gather_S26x100000x1_S16384x26x3_S16384x26_n_012_n_n_012_2_111_wf : GatherDims.WF S26x100000x1 S16384x26x3 S16384x26 [] [0, 1, 2] [] [0, 1, 2] [] 2 ![1, 1, 1]
  gather_S26x100000x64_S16384x26x2_S16384x26x64_2_01_n_n_01_2_1164_wf : GatherDims.WF S26x100000x64 S16384x26x2 S16384x26x64 [2] [0, 1] [] [0, 1] [] 2 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x26.size a ≤ S16384x26.size a
  hwx0_0 : ∀ i : grid0.Coords, EltTy.bits .f32 = 32 ∨ (Rect.block (s := S16384x26) S512x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x13x128.size a ≤ S16384x13x128.size a
  hwx0_1 : ∀ i : grid0.Coords, EltTy.bits .f32 = 32 ∨ (Rect.block (s := S16384x13x128) S512x13x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x13.size a ≤ S16384x13.size a
  hwx0_2 : ∀ i : grid0.Coords, EltTy.bits .f32 = 32 ∨ (Rect.block (s := S16384x13) S512x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x13.size a ≤ S1x13.size a
  hwx0_3 : ∀ i : grid0.Coords, EltTy.bits .f32 = 32 ∨ (Rect.block (s := S1x13) S1x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S16384x1.size a
  hwx0_9 : ∀ i : grid0.Coords, EltTy.bits .f32 = 32 ∨ (Rect.block (s := S16384x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S16384x1.size a
  hwx0_10 : ∀ i : grid0.Coords, EltTy.bits .f32 = 32 ∨ (Rect.block (s := S16384x1) S512x1.size (cc0_transform_10 i) (hinb0_10 i)).WholeWords (EltTy.packing .f32)

variable [Facts₀]

def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def gather_S26x100000x64_S16384x26x2_S16384x26x64_2_01_n_n_01_2_1164 : GatherDims S26x100000x64 S16384x26x2 S16384x26x64 where
  offsetDims := [2]
  collapsedSliceDims := [0, 1]
  operandBatchingDims := []
  startIndicesBatchingDims := []
  startIndexMap := [0, 1]
  indexVectorDim := 2
  sliceSizes := ![1, 1, 64]
  wf := gather_S26x100000x64_S16384x26x2_S16384x26x64_2_01_n_n_01_2_1164_wf

abbrev win0_0 : Pipeline.Window sig grid0 :=
  Pipeline.Window.ofSpec (Memref.whole main_v19) S512x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S512x13x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40_0) S512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v40_1) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100000x1 : Shape := ⟨3, ![26, 100000, 1]⟩
abbrev S26x100000x64 : Shape := ⟨3, ![26, 100000, 64]⟩
abbrev S13x1 : Shape := ⟨2, ![13, 1]⟩
abbrev S1 : Shape := ⟨1, ![1]⟩
abbrev S1x1 : Shape := ⟨2, ![1, 1]⟩
abbrev S26 : Shape := ⟨1, ![26]⟩
abbrev S1x26 : Shape := ⟨2, ![1, 26]⟩
abbrev S16384x1 : Shape := ⟨2, ![16384, 1]⟩
abbrev S_ : Shape := ⟨0, ![]⟩
abbrev S16384x26x1 : Shape := ⟨3, ![16384, 26, 1]⟩
abbrev S16384x26x3 : Shape := ⟨3, ![16384, 26, 3]⟩
abbrev S16384 : Shape := ⟨1, ![16384]⟩
abbrev S16384x26x2 : Shape := ⟨3, ![16384, 26, 2]⟩
abbrev S16384x26x64 : Shape := ⟨3, ![16384, 26, 64]⟩
abbrev S16384x64 : Shape := ⟨2, ![16384, 64]⟩

abbrev nBuf : Space → Nat
  | .hbm => 100
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x64, .f32⟩
  | .hbm, ⟨4, _⟩ => ⟨S13x1, .f32⟩
  | .hbm, ⟨5, _⟩ => ⟨S1, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S16384x1, .f32⟩
  | .hbm, ⟨13, _⟩ => ⟨S1x1, .f32⟩
  | .hbm, ⟨14, _⟩ => ⟨S16384x1, .f32⟩
  | .hbm, ⟨15, _⟩ => ⟨S16384x1, .f32⟩
  | .hbm, ⟨16, _⟩ => ⟨S_, .i32⟩
  | .hbm, ⟨17, _⟩ => ⟨S1x26, .i32⟩
  | .hbm, ⟨18, _⟩ => ⟨S1x26, .i1⟩
  | .hbm, ⟨19, _⟩ => ⟨S_, .i32⟩
  | .hbm, ⟨20, _⟩ => ⟨S1x26, .i32⟩
  | .hbm, ⟨21, _⟩ => ⟨S1x26, .i32⟩
  | .hbm, ⟨22, _⟩ => ⟨S1x26, .i32⟩
  | .hbm, ⟨23, _⟩ => ⟨S_, .i32⟩
  | .hbm, ⟨24, _⟩ => ⟨S16384x26, .i32⟩
  | .hbm, ⟨25, _⟩ => ⟨S16384x26, .i1⟩
  | .hbm, ⟨26, _⟩ => ⟨S_, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S16384x26, .i32⟩
  | .hbm, ⟨31, _⟩ => ⟨S_, .i32⟩
  | .hbm, ⟨32, _⟩ => ⟨S16384x26, .i32⟩
  | .hbm, ⟨33, _⟩ => ⟨S16384x26, .i32⟩
  | .hbm, ⟨34, _⟩ => ⟨S16384x26x1, .i32⟩
  | .hbm, ⟨35, _⟩ => ⟨S16384x26x1, .i32⟩
  | .hbm, ⟨36, _⟩ => ⟨S16384x26x1, .i32⟩
  | .hbm, ⟨37, _⟩ => ⟨S16384x26x3, .i32⟩
  | .hbm, ⟨38, _⟩ => ⟨S16384x26, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1, .f32⟩
  | .hbm, ⟨43, _⟩ => ⟨S_, .i32⟩
  | .hbm, ⟨44, _⟩ => ⟨S1x26, .i32⟩
  | .hbm, ⟨45, _⟩ => ⟨S1x26, .i1⟩
  | .hbm, ⟨46, _⟩ => ⟨S_, .i32⟩
  | .hbm, ⟨47, _⟩ => ⟨S1x26, .i32⟩
  | .hbm, ⟨48, _⟩ => ⟨S1x26, .i32⟩
  | .hbm, ⟨49, _⟩ => ⟨S1x26, .i32⟩
  | .hbm, ⟨50, _⟩ => ⟨S_, .i32⟩
  | .hbm, ⟨51, _⟩ => ⟨S16384x26, .i32⟩
  | .hbm, ⟨52, _⟩ => ⟨S16384x26, .i1⟩
  | .hbm, ⟨53, _⟩ => ⟨S_, .i32⟩
  | .hbm, ⟨54, _⟩ => ⟨S16384x26, .i32⟩
  | .hbm, ⟨55, _⟩ => ⟨S16384x26, .i32⟩
  | .hbm, ⟨56, _⟩ => ⟨S16384x26, .i32⟩
  | .hbm, ⟨57, _⟩ => ⟨S16384x26, .i32⟩
  | .hbm, ⟨58, _⟩ => ⟨S16384x26x1, .i32⟩
  | .hbm, ⟨59, _⟩ => ⟨S16384x26x1, .i32⟩
  | .hbm, ⟨60, _⟩ => ⟨S16384x26x2, .i32⟩
  | .hbm, ⟨61, _⟩ => ⟨S16384x26x64, .f32⟩
  | .hbm, ⟨62, _⟩ => ⟨S_, .f32⟩
  | .hbm, ⟨63, _⟩ => ⟨S16384x64, .f32⟩
  | .hbm, ⟨64, _⟩ => ⟨S16384x64, .f32⟩
  | .hbm, ⟨65, _⟩ => ⟨S16384x26x64, .f32⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S1x1, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S1x1, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x1_S16384x26x3_d2 : Shape.Concatenates [S16384x26x1, S16384x26x1, S16384x26x1] S16384x26x3 2
  reducesTo_S16384x26_S16384_d1 : S16384x26.ReducesTo [1] S16384
  h_S_ : 0 < S_.numel
  bcast_S16384_S16384x1_0 : S16384.BroadcastsInDim S16384x1 (![0] : Fin 1 → Fin S16384x1.rank)
  concatenates_S16384x26x1_S16384x26x1_S16384x26x2_d2 : Shape.Concatenates [S16384x26x1, S16384x26x1] S16384x26x2 2
  reducesTo_S16384x26x64_S16384x64_d1 : S16384x26x64.ReducesTo [1] S16384x64
  reducesTo_S16384x64_S16384_d1 : S16384x64.ReducesTo [1] S16384
  bcast_S_S16384x1 : S_.BroadcastsInDim S16384x1 (![] : Fin 0 → Fin S16384x1.rank)
  dot_S16384x13_S13x1_S16384x1_1_0_0_1_n_n_wf : DotDims.WF S16384x13 S13x1 S16384x1 [1] [0] [0] [1] [] []
  gather_S26x100000x1_S16384x26x3_S16384x26_n_012_n_n_012_2_111_wf : GatherDims.WF S26x100000x1 S16384x26x3 S16384x26 [] [0, 1, 2] [] [0, 1, 2] [] 2 ![1, 1, 1]
  gather_S26x100000x64_S16384x26x2_S16384x26x64_2_01_n_n_01_2_1164_wf : GatherDims.WF S26x100000x64 S16384x26x2 S16384x26x64 [2] [0, 1] [] [0, 1] [] 2 ![1, 1, 64]
  dot_S16384x1_S1x1_S16384x1_1_0_0_1_n_n_wf : DotDims.WF S16384x1 S1x1 S16384x1 [1] [0] [0] [1] [] []

variable [Facts₀]

def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def gather_S26x100000x64_S16384x26x2_S16384x26x64_2_01_n_n_01_2_1164 : GatherDims S26x100000x64 S16384x26x2 S16384x26x64 where
  offsetDims := [2]
  collapsedSliceDims := [0, 1]
  operandBatchingDims := []
  startIndicesBatchingDims := []
  startIndexMap := [0, 1]
  indexVectorDim := 2
  sliceSizes := ![1, 1, 64]
  wf := gather_S26x100000x64_S16384x26x2_S16384x26x64_2_01_n_n_01_2_1164_wf
def dot_S16384x1_S1x1_S16384x1_1_0_0_1_n_n : DotDims S16384x1 S1x1 S16384x1 where
  lhsContracting := [1]
  rhsContracting := [0]
  lhsNonContracting := [0]
  rhsNonContracting := [1]
  lhsBatch := []
  rhsBatch := []
  wf := dot_S16384x1_S1x1_S16384x1_1_0_0_1_n_n_wf

class Facts : Prop extends Facts₀ where

variable [Facts]
-- ==== Proof.FrameBits.lean ====
/-
  The frame of the program: its forty-nine host operations, then the one region over a grid of 32 points, run to
  the end without a fault and leave the ten argument arrays as they were. Nine input windows (the two gathered
  embedding arrays and the dense features block by block along the batch axis, the six small parameter arrays
  whole) and two output windows of 512 rows each. At every point the body loads each input block whole and stores
  each output block whole, so each output's buffer after the body is one store's payload; the arrays the region
  finds are the launch memory after the host operations, none of which writes an argument array.
  Stated at any float instance.
-/
import proofs.«131468_j28733331210610_2_alg».proof.Proof.Gen.Kernel.Launch
import proofs.«131468_j28733331210610_2_alg».proof.Proof.Gen.Kernel.Skeleton
import proofs.«131468_j28733331210610_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the region's -/

/-- From a run to the region's post, read at the argument arrays: an array a window stages ends as the region found
    it, and so does every other unscoped buffer; each was found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c))),
      ((h c).2 main_arg9 (Pipeline.mem_restRefs_of main_arg9 (by decide) (by decide))).trans (V_main_arg9 m c)⟩) h

/-! ## The body's rectangles: each load and each store takes a whole buffer -/

abbrev rA : Rect S512x26 := Rect.unit (s := S512x26) ![0, 0] S512x26.size inb_S512x26_S512x26_0_0
abbrev rB : Rect S512x13x128 := Rect.unit (s := S512x13x128) ![0, 0, 0] S512x13x128.size inb_S512x13x128_S512x13x128_0_0_0
abbrev rC : Rect S512x13 := Rect.unit (s := S512x13) ![0, 0] S512x13.size inb_S512x13_S512x13_0_0
abbrev rD : Rect S1x13 := Rect.unit (s := S1x13) ![0, 0] S1x13.size inb_S1x13_S1x13_0_0
abbrev rE : Rect S1x1 := Rect.unit (s := S1x1) ![0, 0] S1x1.size inb_S1x1_S1x1_0_0
abbrev rO : Rect S512x1 := Rect.unit (s := S512x1) ![0, 0] S512x1.size inb_S512x1_S512x1_0_0

/-! ## What the body leaves in each output's buffer -/

/-- The first head's buffer after the body: its one store, of the logistic of the row's logit scaled and shifted by
    the first head's weight and bias. -/
def out9 (x0 : Vec F S512x26 .f32) (x1 : Vec F S512x13x128 .f32) (x2 : Vec F S512x13 .f32) (x3 : Vec F S1x13 .f32) (x4 : Vec F S1x1 .f32)
    (x5 : Vec F S1x1 .f32) (x6 : Vec F S1x1 .f32) : Vec F S512x1 .f32 :=
  View.canon [⟨rO, k0_pay1 (k0_pay4 (View.ld x2 rC) (View.ld x3 rD) (View.ld x4 rE) (View.ld x0 rA) (View.ld x1 rB) (View.ld x5 rE)) (View.ld x6 rE)⟩]

/-- The second head's buffer after the body: its one store, the same of the second head's weight and bias. -/
def out10 (x0 : Vec F S512x26 .f32) (x1 : Vec F S512x13x128 .f32) (x2 : Vec F S512x13 .f32) (x3 : Vec F S1x13 .f32) (x4 : Vec F S1x1 .f32)
    (x7 : Vec F S1x1 .f32) (x8 : Vec F S1x1 .f32) : Vec F S512x1 .f32 :=
  View.canon [⟨rO, k0_pay2 (k0_pay3 (View.ld x2 rC) (View.ld x3 rD) (View.ld x4 rE) (View.ld x0 rA) (View.ld x1 rB)) (View.ld x7 rE) (View.ld x8 rE)⟩]

/-- One whole-buffer store covers the buffer. -/
theorem coverO (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

/-! ## The body's triple -/

set_option maxHeartbeats 4000000 in
/-- The body on whole buffers, the inputs' at given contents and the outputs' at anything, runs to the continuation
    holding the inputs' as they were and each output's at its store's payload. -/
theorem sound_kernel (c : Dev nD) (E : Set ℕ) (i : grid0.Coords)
    (arg1 : Memref sig .tc .vmem S512x26 .f32) (harg1 : arg1.IsWhole) (arg2 : Memref sig .tc .vmem S512x13x128 .f32) (harg2 : arg2.IsWhole)
    (arg3 : Memref sig .tc .vmem S512x13 .f32) (harg3 : arg3.IsWhole) (arg4 : Memref sig .tc .vmem S1x13 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (arg10 : Memref sig .tc .vmem S512x1 .f32) (harg10 : arg10.IsWhole)
    (arg11 : Memref sig .tc .vmem S512x1 .f32) (harg11 : arg11.IsWhole)
    (x0 : Vec F S512x26 .f32) (x1 : Vec F S512x13x128 .f32) (x2 : Vec F S512x13 .f32) (x3 : Vec F S1x13 .f32) (x4 : Vec F S1x1 .f32)
    (x5 : Vec F S1x1 .f32) (x6 : Vec F S1x1 .f32) (x7 : Vec F S1x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6)
            ∗ owns (c : Thread nD τ) arg11 fullShare (out10 x0 x1 x2 x3 x4 x7 x8)) -∗ K ⟨⟩))
      ⊢ wp frame (wpE (defs₀ (F := F)) Variants.none c none) E
          (cc0__fm_kernel i arg1 harg1 arg2 harg2 arg3 harg3 arg4 harg4 arg5 harg5 arg6 harg6 arg7 harg7 arg8 harg8 arg9 harg9 arg10 harg10 arg11 harg11) K := by
  simp only [cc0__fm_kernel_eq_skeleton]; unfold cc0__fm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverO _)
  iexists _; isplitr
  swap; · iexact H10
  ipureintro
  try dsimp only
  exact View.read_writes_eq_canon _ _ _ (coverO _)

/-! ## The proof data -/

/-- On core `c`: the arrays as the region finds them; after the body at point `t` each input's buffer at its block
    and each output's at its store's payload of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t)
    | ⟨10, _⟩ => out10 (iblk m c 0 t) (iblk m c 1 t) (iblk m c 2 t) (iblk m c 3 t) (iblk m c 4 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) := by dsimp only [dats]
theorem after10 (c : Dev nD) (t : Fin cfg0.N) : (dats m 0 c).after 10 t = out10 (iblk m c 0 t) (iblk m c 1 t) (iblk m c 2 t) (iblk m c 3 t) (iblk m c 4 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, and every final state has each window's array at what the
    proof data's blocks make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Frame

end
-- ==== Proof.FrameIdeal.lean ====
/-
  The frame of the program: its forty-nine host operations, then the one region over a grid of 32 points, run to
  the end without a fault and leave the ten argument arrays as they were. Nine input windows (the two gathered
  embedding arrays and the dense features block by block along the batch axis, the six small parameter arrays
  whole) and two output windows of 512 rows each. At every point the body loads each input block whole and stores
  each output block whole, so each output's buffer after the body is one store's payload; the arrays the region
  finds are the launch memory after the host operations, none of which writes an argument array.
  Stated at any float instance.
-/
import proofs.«131468_j28733331210610_2_alg».proof.Proof.Gen.KernelIdeal.Launch
import proofs.«131468_j28733331210610_2_alg».proof.Proof.Gen.KernelIdeal.Skeleton
import proofs.«131468_j28733331210610_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the region's -/

/-- From a run to the region's post, read at the argument arrays: an array a window stages ends as the region found
    it, and so does every other unscoped buffer; each was found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c))),
      ((h c).2 main_arg9 (Pipeline.mem_restRefs_of main_arg9 (by decide) (by decide))).trans (V_main_arg9 m c)⟩) h

/-! ## The body's rectangles: each load and each store takes a whole buffer -/

abbrev rA : Rect S512x26 := Rect.unit (s := S512x26) ![0, 0] S512x26.size inb_S512x26_S512x26_0_0
abbrev rB : Rect S512x13x128 := Rect.unit (s := S512x13x128) ![0, 0, 0] S512x13x128.size inb_S512x13x128_S512x13x128_0_0_0
abbrev rC : Rect S512x13 := Rect.unit (s := S512x13) ![0, 0] S512x13.size inb_S512x13_S512x13_0_0
abbrev rD : Rect S1x13 := Rect.unit (s := S1x13) ![0, 0] S1x13.size inb_S1x13_S1x13_0_0
abbrev rE : Rect S1x1 := Rect.unit (s := S1x1) ![0, 0] S1x1.size inb_S1x1_S1x1_0_0
abbrev rO : Rect S512x1 := Rect.unit (s := S512x1) ![0, 0] S512x1.size inb_S512x1_S512x1_0_0

/-! ## What the body leaves in each output's buffer -/

/-- The first head's buffer after the body: its one store, of the logistic of the row's logit scaled and shifted by
    the first head's weight and bias. -/
def out9 (x0 : Vec F S512x26 .f32) (x1 : Vec F S512x13x128 .f32) (x2 : Vec F S512x13 .f32) (x3 : Vec F S1x13 .f32) (x4 : Vec F S1x1 .f32)
    (x5 : Vec F S1x1 .f32) (x6 : Vec F S1x1 .f32) : Vec F S512x1 .f32 :=
  View.canon [⟨rO, k0_pay1 (k0_pay4 (View.ld x2 rC) (View.ld x3 rD) (View.ld x4 rE) (View.ld x0 rA) (View.ld x1 rB) (View.ld x5 rE)) (View.ld x6 rE)⟩]

/-- The second head's buffer after the body: its one store, the same of the second head's weight and bias. -/
def out10 (x0 : Vec F S512x26 .f32) (x1 : Vec F S512x13x128 .f32) (x2 : Vec F S512x13 .f32) (x3 : Vec F S1x13 .f32) (x4 : Vec F S1x1 .f32)
    (x7 : Vec F S1x1 .f32) (x8 : Vec F S1x1 .f32) : Vec F S512x1 .f32 :=
  View.canon [⟨rO, k0_pay2 (k0_pay3 (View.ld x2 rC) (View.ld x3 rD) (View.ld x4 rE) (View.ld x0 rA) (View.ld x1 rB)) (View.ld x7 rE) (View.ld x8 rE)⟩]

/-- One whole-buffer store covers the buffer. -/
theorem coverO (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

/-! ## The body's triple -/

set_option maxHeartbeats 4000000 in
/-- The body on whole buffers, the inputs' at given contents and the outputs' at anything, runs to the continuation
    holding the inputs' as they were and each output's at its store's payload. -/
theorem sound_kernel (c : Dev nD) (E : Set ℕ) (i : grid0.Coords)
    (arg1 : Memref sig .tc .vmem S512x26 .f32) (harg1 : arg1.IsWhole) (arg2 : Memref sig .tc .vmem S512x13x128 .f32) (harg2 : arg2.IsWhole)
    (arg3 : Memref sig .tc .vmem S512x13 .f32) (harg3 : arg3.IsWhole) (arg4 : Memref sig .tc .vmem S1x13 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (arg10 : Memref sig .tc .vmem S512x1 .f32) (harg10 : arg10.IsWhole)
    (arg11 : Memref sig .tc .vmem S512x1 .f32) (harg11 : arg11.IsWhole)
    (x0 : Vec F S512x26 .f32) (x1 : Vec F S512x13x128 .f32) (x2 : Vec F S512x13 .f32) (x3 : Vec F S1x13 .f32) (x4 : Vec F S1x1 .f32)
    (x5 : Vec F S1x1 .f32) (x6 : Vec F S1x1 .f32) (x7 : Vec F S1x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6)
            ∗ owns (c : Thread nD τ) arg11 fullShare (out10 x0 x1 x2 x3 x4 x7 x8)) -∗ K ⟨⟩))
      ⊢ wp frame (wpE (defs₀ (F := F)) Variants.none c none) E
          (cc0__fm_kernel i arg1 harg1 arg2 harg2 arg3 harg3 arg4 harg4 arg5 harg5 arg6 harg6 arg7 harg7 arg8 harg8 arg9 harg9 arg10 harg10 arg11 harg11) K := by
  simp only [cc0__fm_kernel_eq_skeleton]; unfold cc0__fm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverO _)
  iexists _; isplitr
  swap; · iexact H10
  ipureintro
  try dsimp only
  exact View.read_writes_eq_canon _ _ _ (coverO _)

/-! ## The proof data -/

/-- On core `c`: the arrays as the region finds them; after the body at point `t` each input's buffer at its block
    and each output's at its store's payload of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t)
    | ⟨10, _⟩ => out10 (iblk m c 0 t) (iblk m c 1 t) (iblk m c 2 t) (iblk m c 3 t) (iblk m c 4 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) := by dsimp only [dats]
theorem after10 (c : Dev nD) (t : Fin cfg0.N) : (dats m 0 c).after 10 t = out10 (iblk m c 0 t) (iblk m c 1 t) (iblk m c 2 t) (iblk m c 3 t) (iblk m c 4 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, and every final state has each window's array at what the
    proof data's blocks make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Frame

end
-- ==== Proof.Spec.lean ====
/-
  The factorization-machine heads as one function of the batch row.
  For row `b`: the dense part is the inner product of the row's 13 dense features with the weight column plus its
  bias; the first-order part adds the 26 gathered scalar embeddings; the second-order part is one half of the sum
  over the 64 embedding coordinates of (the square of the sum over the 26 fields) minus (the sum over the fields of
  the squares). Each head is the logistic function of the logit times the head's weight plus its bias.
  Everything is over the extended reals; sums are finite sums in their commutative monoid.
-/
import Idealize.ShloMosaic.PureOps.Ideal
import Idealize.ShloMosaic.Lib.ValueIdx

noncomputable section

namespace Cert.FmSpec

open Idealize.ShloMosaic Idealize.ShloMosaic.ValueIdx

/-- The literal one half both programs multiply the second-order sum by (the same word on both sides). -/
abbrev half : EReal := Ideal.ofBits .f32 0x3F000000#32

/-- The sum over the 26 fields of the gathered vector embeddings, at row `b` and coordinate `e`. -/
def fieldSum (g2 : (⟨3, ![16384, 26, 64]⟩ : Shape).Idx → EReal) (b : Fin 16384) (e : Fin 64) : EReal :=
  ∑ f : Fin 26, g2 (ix3 b f e)

/-- The sum over the 26 fields of their squares, at row `b` and coordinate `e`. -/
def fieldSqSum (g2 : (⟨3, ![16384, 26, 64]⟩ : Shape).Idx → EReal) (b : Fin 16384) (e : Fin 64) : EReal :=
  ∑ f : Fin 26, g2 (ix3 b f e) * g2 (ix3 b f e)

/-- The logit of row `b`: dense part, first-order part, second-order part, added in this order. -/
def logit (g1 : (⟨2, ![16384, 26]⟩ : Shape).Idx → EReal) (g2 : (⟨3, ![16384, 26, 64]⟩ : Shape).Idx → EReal)
    (dense : (⟨2, ![16384, 13]⟩ : Shape).Idx → EReal) (W : (⟨2, ![13, 1]⟩ : Shape).Idx → EReal)
    (bd : (⟨1, ![1]⟩ : Shape).Idx → EReal) (b : Fin 16384) : EReal :=
  (((∑ k : Fin 13, dense (ix2 b k) * W (ix2 k (0 : Fin 1))) + bd (ix1 (0 : Fin 1))) + ∑ f : Fin 26, g1 (ix2 b f))
    + half * ∑ e : Fin 64, (fieldSum g2 b e * fieldSum g2 b e - fieldSqSum g2 b e)

/-- One head at row `b`: the logistic function of the logit times the head's weight plus the head's bias. -/
def head (g1 : (⟨2, ![16384, 26]⟩ : Shape).Idx → EReal) (g2 : (⟨3, ![16384, 26, 64]⟩ : Shape).Idx → EReal)
    (dense : (⟨2, ![16384, 13]⟩ : Shape).Idx → EReal) (W : (⟨2, ![13, 1]⟩ : Shape).Idx → EReal)
    (bd : (⟨1, ![1]⟩ : Shape).Idx → EReal) (wh : (⟨2, ![1, 1]⟩ : Shape).Idx → EReal) (bh : (⟨1, ![1]⟩ : Shape).Idx → EReal)
    (b : Fin 16384) : EReal :=
  Ideal.logistic (logit g1 g2 dense W bd b * wh (ix2 (0 : Fin 1) (0 : Fin 1)) + bh (ix1 (0 : Fin 1)))

/-- A head as an array of shape [16384, 1]. -/
def headArr (g1 : (⟨2, ![16384, 26]⟩ : Shape).Idx → EReal) (g2 : (⟨3, ![16384, 26, 64]⟩ : Shape).Idx → EReal)
    (dense : (⟨2, ![16384, 13]⟩ : Shape).Idx → EReal) (W : (⟨2, ![13, 1]⟩ : Shape).Idx → EReal)
    (bd : (⟨1, ![1]⟩ : Shape).Idx → EReal) (wh : (⟨2, ![1, 1]⟩ : Shape).Idx → EReal) (bh : (⟨1, ![1]⟩ : Shape).Idx → EReal) :
    (⟨2, ![16384, 1]⟩ : Shape).Idx → EReal :=
  fun i => head g1 g2 dense W bd wh bh (i 0)

end Cert.FmSpec

end
-- ==== Proof.LibPairSum.lean ====
/-
  A finite sum over 26 indices splits into the sum over the 13 even indices plus the sum over the 13 odd indices.
  The general statement, for 2 * n indices, is by induction on n.
-/
import Mathlib.Algebra.BigOperators.Fin

namespace Cert.LibPairSum

/-- A sum over `2 * n` indices is the sum over the even indices plus the sum over the odd indices
    (as a sum over `Fin (2 * n)` of a function of the natural-number value). -/
theorem sum_range_pairs {M : Type*} [AddCommMonoid M] (h : ℕ → M) (n : ℕ) :
    (∑ k ∈ Finset.range n, h (2 * k)) + (∑ k ∈ Finset.range n, h (2 * k + 1))
      = ∑ j ∈ Finset.range (2 * n), h j := by
  induction n with
  | zero => simp
  | succ n ih =>
    rw [Finset.sum_range_succ, Finset.sum_range_succ, show 2 * (n + 1) = 2 * n + 1 + 1 by omega,
      Finset.sum_range_succ, Finset.sum_range_succ, ← ih]
    -- (A + a) + (B + b) = ((A + B) + a) + b in a commutative monoid
    exact (add_add_add_comm _ _ _ _).trans (add_assoc _ _ _).symm

/-- The sum over the 26 fields is the sum over the 13 even-indexed fields plus the sum over the 13 odd-indexed
    fields. -/
theorem sum_fin26_pairs {M : Type*} [AddCommMonoid M] (h : Fin 26 → M) :
    (∑ k : Fin 13, h ⟨2 * k.val, by omega⟩) + (∑ k : Fin 13, h ⟨2 * k.val + 1, by omega⟩) = ∑ f : Fin 26, h f := by
  -- extend h to the natural numbers (by a default value beyond 26) and use the statement over ranges
  let g : ℕ → M := fun j => if hj : j < 26 then h ⟨j, hj⟩ else 0
  have e0 : (∑ k : Fin 13, h ⟨2 * k.val, by omega⟩) = ∑ k ∈ Finset.range 13, g (2 * k) := by
    rw [← Fin.sum_univ_eq_sum_range (fun k => g (2 * k)) 13]
    refine Finset.sum_congr rfl fun k _ => ?_
    have hk : 2 * k.val < 26 := by omega
    simp only [g, dif_pos hk]
  have e1 : (∑ k : Fin 13, h ⟨2 * k.val + 1, by omega⟩) = ∑ k ∈ Finset.range 13, g (2 * k + 1) := by
    rw [← Fin.sum_univ_eq_sum_range (fun k => g (2 * k + 1)) 13]
    refine Finset.sum_congr rfl fun k _ => ?_
    have hk : 2 * k.val + 1 < 26 := by omega
    simp only [g, dif_pos hk]
  have e2 : (∑ f : Fin 26, h f) = ∑ j ∈ Finset.range (2 * 13), g j := by
    rw [show 2 * 13 = 26 from rfl, ← Fin.sum_univ_eq_sum_range g 26]
    refine Finset.sum_congr rfl fun f _ => ?_
    simp only [g, dif_pos f.isLt]
  rw [e0, e1, e2]
  exact sum_range_pairs g 13

end Cert.LibPairSum
-- ==== Proof.RowHead.lean ====
/-
  One batch row of the kernel's computation, as a function of the row's blocks.
  The gathered vector embeddings of a row arrive packed two fields to a lane row: 13 lane rows of 128 lanes, lane
  l of lane row k holding coordinate l mod 64 of field 2k + l / 64. The kernel sums the 13 lane rows, then adds
  the low half of the lanes to the high half: per coordinate that is the sum over the even fields plus the sum over
  the odd fields, which is the sum over all 26 fields. The same for the squares.
-/
import proofs.«131468_j28733331210610_2_alg».proof.Proof.Spec
import proofs.«131468_j28733331210610_2_alg».proof.Proof.LibPairSum

noncomputable section

namespace Cert.FmRow

open Idealize.ShloMosaic Idealize.ShloMosaic.ValueIdx

/-- Lane e of the low half. -/
abbrev lo (e : Fin 64) : Fin 128 := ⟨e.val, by omega⟩
/-- Lane 64 + e, of the high half. -/
abbrev hi (e : Fin 64) : Fin 128 := ⟨64 + e.val, by omega⟩

/-- The sum of lane l over the 13 lane rows. -/
def laneSum (p : Fin 13 → Fin 128 → EReal) (l : Fin 128) : EReal := ∑ k : Fin 13, p k l
/-- The sum of the squares of lane l over the 13 lane rows. -/
def laneSqSum (p : Fin 13 → Fin 128 → EReal) (l : Fin 128) : EReal := ∑ k : Fin 13, p k l * p k l

/-- The row's logit from its blocks: the dense inner product plus its bias, plus the scalar embeddings' sum, plus
    one half of the sum over the coordinates of the squared folded lane sum minus the folded lane sum of squares. -/
def logit (p1 : Fin 26 → EReal) (p : Fin 13 → Fin 128 → EReal) (d w : Fin 13 → EReal) (s : EReal) : EReal :=
  (((∑ j : Fin 13, d j * w j) + s) + ∑ f : Fin 26, p1 f)
    + Cert.FmSpec.half * ∑ e : Fin 64, ((laneSum p (lo e) + laneSum p (hi e)) * (laneSum p (lo e) + laneSum p (hi e))
        - (laneSqSum p (lo e) + laneSqSum p (hi e)))

/-- A head of the row: the logistic function of the logit times the head's weight plus the head's bias. -/
def head (p1 : Fin 26 → EReal) (p : Fin 13 → Fin 128 → EReal) (d w : Fin 13 → EReal) (s wh bh : EReal) : EReal :=
  Ideal.logistic (logit p1 p d w s * wh + bh)

/-- The field and the coordinate that lane l of lane row k holds. -/
abbrev fieldOf (k : Fin 13) (l : Fin 128) : Fin 26 := ⟨2 * k.val + l.val / 64, by have := k.isLt; have := l.isLt; omega⟩
abbrev coordOf (l : Fin 128) : Fin 64 := ⟨l.val % 64, Nat.mod_lt _ (by decide)⟩

/-- Folding the two lane halves of the packed row gives the sum over all 26 fields. -/
theorem fold_eq_fieldSum (h : Fin 26 → Fin 64 → EReal) (e : Fin 64) :
    laneSum (fun k l => h (fieldOf k l) (coordOf l)) (lo e) + laneSum (fun k l => h (fieldOf k l) (coordOf l)) (hi e)
      = ∑ f : Fin 26, h f e := by
  have := e.isLt
  rw [← Cert.LibPairSum.sum_fin26_pairs (fun f => h f e)]
  unfold laneSum
  refine congrArg₂ (· + ·) (Finset.sum_congr rfl fun k _ => ?_) (Finset.sum_congr rfl fun k _ => ?_)
  · exact congrArg₂ h (Fin.ext (by show 2 * k.val + e.val / 64 = 2 * k.val; omega)) (Fin.ext (by show e.val % 64 = e.val; omega))
  · exact congrArg₂ h (Fin.ext (by show 2 * k.val + (64 + e.val) / 64 = 2 * k.val + 1; omega)) (Fin.ext (by show (64 + e.val) % 64 = e.val; omega))

/-- The same for the squares. -/
theorem foldSq_eq_fieldSqSum (h : Fin 26 → Fin 64 → EReal) (e : Fin 64) :
    laneSqSum (fun k l => h (fieldOf k l) (coordOf l)) (lo e) + laneSqSum (fun k l => h (fieldOf k l) (coordOf l)) (hi e)
      = ∑ f : Fin 26, h f e * h f e := by
  have := e.isLt
  rw [← Cert.LibPairSum.sum_fin26_pairs (fun f => h f e * h f e)]
  unfold laneSqSum
  refine congrArg₂ (· + ·) (Finset.sum_congr rfl fun k _ => ?_) (Finset.sum_congr rfl fun k _ => ?_)
  · have e1 : h (fieldOf k (lo e)) (coordOf (lo e)) = h ⟨2 * k.val, by have := k.isLt; omega⟩ e :=
      congrArg₂ h (Fin.ext (by show 2 * k.val + e.val / 64 = 2 * k.val; omega)) (Fin.ext (by show e.val % 64 = e.val; omega))
    show h (fieldOf k (lo e)) (coordOf (lo e)) * h (fieldOf k (lo e)) (coordOf (lo e)) = _
    rw [e1]
  · have e1 : h (fieldOf k (hi e)) (coordOf (hi e)) = h ⟨2 * k.val + 1, by have := k.isLt; omega⟩ e :=
      congrArg₂ h (Fin.ext (by show 2 * k.val + (64 + e.val) / 64 = 2 * k.val + 1; omega)) (Fin.ext (by show (64 + e.val) % 64 = e.val; omega))
    show h (fieldOf k (hi e)) (coordOf (hi e)) * h (fieldOf k (hi e)) (coordOf (hi e)) = _
    rw [e1]

/-- The row's logit from the packed blocks is the specification's logit of the unpacked arrays. -/
theorem logit_eq_spec (g1 : (⟨2, ![16384, 26]⟩ : Shape).Idx → EReal) (g2 : (⟨3, ![16384, 26, 64]⟩ : Shape).Idx → EReal)
    (dense : (⟨2, ![16384, 13]⟩ : Shape).Idx → EReal) (W : (⟨2, ![13, 1]⟩ : Shape).Idx → EReal)
    (bd : (⟨1, ![1]⟩ : Shape).Idx → EReal) (b : Fin 16384) :
    logit (fun f => g1 (ix2 b f)) (fun k l => g2 (ix3 b (fieldOf k l) (coordOf l))) (fun j => dense (ix2 b j))
        (fun j => W (ix2 j (0 : Fin 1))) (bd (ix1 (0 : Fin 1)))
      = Cert.FmSpec.logit g1 g2 dense W bd b := by
  unfold logit Cert.FmSpec.logit Cert.FmSpec.fieldSum Cert.FmSpec.fieldSqSum
  refine congrArg₂ (· + ·) rfl (congrArg (Cert.FmSpec.half * ·) (Finset.sum_congr rfl fun e _ => ?_))
  rw [fold_eq_fieldSum (fun f e => g2 (ix3 b f e)) e, foldSq_eq_fieldSqSum (fun f e => g2 (ix3 b f e)) e]

/-- A head of the row from the packed blocks is the specification's head. -/
theorem head_eq_spec (g1 : (⟨2, ![16384, 26]⟩ : Shape).Idx → EReal) (g2 : (⟨3, ![16384, 26, 64]⟩ : Shape).Idx → EReal)
    (dense : (⟨2, ![16384, 13]⟩ : Shape).Idx → EReal) (W : (⟨2, ![13, 1]⟩ : Shape).Idx → EReal)
    (bd : (⟨1, ![1]⟩ : Shape).Idx → EReal) (wh : (⟨2, ![1, 1]⟩ : Shape).Idx → EReal) (bh : (⟨1, ![1]⟩ : Shape).Idx → EReal)
    (b : Fin 16384) :
    head (fun f => g1 (ix2 b f)) (fun k l => g2 (ix3 b (fieldOf k l) (coordOf l))) (fun j => dense (ix2 b j))
        (fun j => W (ix2 j (0 : Fin 1))) (bd (ix1 (0 : Fin 1))) (wh (ix2 (0 : Fin 1) (0 : Fin 1))) (bh (ix1 (0 : Fin 1)))
      = Cert.FmSpec.head g1 g2 dense W bd wh bh b := by
  unfold head Cert.FmSpec.head
  rw [logit_eq_spec]

end Cert.FmRow

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibMidSum.lean ====
/-
  A sum along the middle axis of a three-axis array, and a unit-stride window of the last axis, read at an index.

  At exact arithmetic the reduction of an [A, B, C] array over axis 1, at (r, l), is the sum over k of the entry
  (r, k, l). A slice of an [A, N] matrix that keeps every row and the C columns from column o on reads, at (r, e),
  the matrix at (r, o + e).
-/
import Idealize.ShloMosaic.Lib.ValueIdx
import Idealize.ShloMosaic.Lib.Pipeline.Value
import Idealize.ShloMosaic.PureOps.Ideal.Laws

noncomputable section

namespace LibMidSum

open Idealize.ShloMosaic Idealize.ShloMosaic.ValueIdx

variable {φ : FTy}

/-- The exact sum over axis 1 of an [A, B, C] array, at (r, l): the sum over k of the entry (r, k, l). -/
theorem sum_axis1of3_apply {A B C : ℕ} (src : FVec Ideal ⟨3, ![A, B, C]⟩ φ) (acc : BitVec φ.bits)
    (h : Shape.Reduces ⟨3, ![A, B, C]⟩ [1] ⟨2, ![A, C]⟩) (hφ : FKind.Formats φ) (hacc : acc = FKind.add.neutral φ hφ)
    (r : Fin A) (l : Fin C) :
    multiReduction .add [1] ⟨2, ![A, C]⟩ src acc h hφ hacc (ix2 r l) = ∑ k : Fin B, src (ix3 r k l) := by
  refine (Ideal.multiReduction_add_single src acc h hφ hacc (ix2 r l)).trans ?_
  show ∑ k : Fin B, src (h.lift (ix2 r l) k) = _
  refine Finset.sum_congr rfl fun k _ => congrArg src ?_
  funext d
  match d with
  | ⟨0, _⟩ => exact Fin.ext rfl
  | ⟨1, _⟩ => exact Fin.ext rfl
  | ⟨2, _⟩ => exact Fin.ext rfl

/-- The columns o, …, o + C − 1 of an [A, N] matrix, every row kept, read at (r, e): the matrix at (r, o + e). -/
theorem cols_from_apply {α : Type} {A N C : ℕ} (o : ℕ) (x : (⟨2, ![A, N]⟩ : Shape).Idx → α)
    (h : (⟨2, ![A, N]⟩ : Shape).Slices ![0, o] ⟨2, ![A, C]⟩) (r : Fin A) (e : Fin C) (q : Fin N) (hq : q.val = o + e.val) :
    extractStridedSlice ⟨2, ![A, C]⟩ ![0, o] x h (ix2 r e) = x (ix2 r q) := by
  refine extractStridedSlice_apply ![0, o] x h (ix2 r e) (ix2 r q) fun a => ?_
  match a with
  | ⟨0, _⟩ => show r.val = 0 + r.val; omega
  | ⟨1, _⟩ => show q.val = o + e.val; exact hq

end LibMidSum

end
-- ==== Proof.Payload.lean ====
/-
  The body's two stored values, read at a row of the block: each is the row's head (RowHead) of the loaded blocks'
  rows. The body multiplies the dense block by the weight row broadcast down the rows and sums along the row, adds
  the bias word, adds the row sum of the scalar embeddings; sums the packed vector embeddings (and their squares)
  over the 13 lane rows, adds the two 64-lane halves, and takes one half of the row sum of square-of-sum minus
  sum-of-squares; each head is the logistic function of the logit times a weight word plus a bias word.
-/
import proofs.«131468_j28733331210610_2_alg».proof.Proof.Gen.KernelIdeal.Skeleton
import proofs.«131468_j28733331210610_2_alg».proof.Proof.RowHead
import proofs.«131468_j28733331210610_2_alg».proof.Proof.LibKeepdims
import proofs.«131468_j28733331210610_2_alg».proof.Proof.LibRowOps
import proofs.«131468_j28733331210610_2_alg».proof.Proof.LibMidSum
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.FmRow

/-- The one word of a [1, 1] block. -/
theorem word_apply (v : Vec Ideal S1x1 .f32) (h : ∀ a, (![0, 0] : Fin S1x1.rank → Nat) a < S1x1.size a) :
    extractAt ![0, 0] v h = v (ix2 (0 : Fin 1) (0 : Fin 1)) :=
  congrArg v (funext fun a => by match a with | ⟨0, _⟩ => rfl | ⟨1, _⟩ => rfl)

/-- The packed block summed over its 13 lane rows, at row r and lane l. -/
theorem laneSum_apply (v16 : Vec Ideal S512x13x128 .f32) (r : Fin 512) (l : Fin 128) (h1 : S512x13x128.ShapeCasts S512x13x128)
    (acc : BitVec 32) (h2 : Shape.Reduces S512x13x128 [1] S512x128) (hφ : FKind.Formats .f32) (hacc : acc = FKind.add.neutral .f32 hφ) :
    multiReduction (F := Ideal) .add [1] S512x128 (shapeCast S512x13x128 v16 h1) acc h2 hφ hacc (ix2 r l) = laneSum (fun k l => v16 (ix3 r k l)) l := by
  unfold laneSum
  exact (LibMidSum.sum_axis1of3_apply _ _ _ _ _ r l).trans (Finset.sum_congr rfl fun k _ => congrFun (shapeCast_self v16 _) _)

/-- The squares of the packed block summed over its 13 lane rows, at row r and lane l. -/
theorem laneSqSum_apply (v16 : Vec Ideal S512x13x128 .f32) (r : Fin 512) (l : Fin 128) (h1 : S512x13x128.ShapeCasts S512x13x128)
    (acc : BitVec 32) (h2 : Shape.Reduces S512x13x128 [1] S512x128) (hφ : FKind.Formats .f32) (hacc : acc = FKind.add.neutral .f32 hφ) :
    multiReduction (F := Ideal) .add [1] S512x128 (mulf (shapeCast S512x13x128 v16 h1) (shapeCast S512x13x128 v16 h1)) acc h2 hφ hacc (ix2 r l)
      = laneSqSum (fun k l => v16 (ix3 r k l)) l := by
  unfold laneSqSum
  exact (LibMidSum.sum_axis1of3_apply _ _ _ _ _ r l).trans (Finset.sum_congr rfl fun k _ =>
    congrArg₂ (· * ·) (congrFun (shapeCast_self v16 _) _) (congrFun (shapeCast_self v16 _) _))

/-- The logit the body computes, at row r of the block. -/
theorem pay3_apply (v0 : Vec Ideal S512x13 .f32) (v1 : Vec Ideal S1x13 .f32) (v7 : Vec Ideal S1x1 .f32)
    (v11 : Vec Ideal S512x26 .f32) (v16 : Vec Ideal S512x13x128 .f32) (r : Fin 512) (z : Fin 1) :
    k0_pay3 (F := Ideal) v0 v1 v7 v11 v16 (ix2 r z)
      = logit (fun f => v11 (ix2 r f)) (fun k l => v16 (ix3 r k l)) (fun j => v0 (ix2 r j))
          (fun j => v1 (ix2 (0 : Fin 1) j)) (v7 (ix2 (0 : Fin 1) (0 : Fin 1))) := by
  simp only [k0_pay3, addf_apply, mulf_apply, broadcast_apply]
  unfold logit
  refine congrArg₂ (· + ·) (congrArg₂ (· + ·) (congrArg₂ (· + ·) ?_ (word_apply v7 _)) ?_) (congrArg₂ (· * ·) rfl ?_)
  · -- the dense inner product
    refine (LibKeepdims.shapeCast_col_apply _ _ r z).trans ((LibKeepdims.sum_axis1_apply _ _ _ _ _ r).trans
      (Finset.sum_congr rfl fun j _ => ?_))
    exact congrArg (v0 (ix2 r j) * ·) ((LibRowOps.broadcastTo_row_apply _ _ r j).trans (congrFun (shapeCast_self v1 _) _))
  · -- the scalar embeddings' row sum
    exact (LibKeepdims.shapeCast_col_apply _ _ r z).trans ((LibKeepdims.sum_axis1_apply _ _ _ _ _ r).trans
      (Finset.sum_congr rfl fun f _ => congrFun (shapeCast_self v11 _) _))
  · -- the second-order row sum
    refine (LibKeepdims.shapeCast_col_apply _ _ r z).trans ((LibKeepdims.sum_axis1_apply _ _ _ _ _ r).trans
      (Finset.sum_congr rfl fun e _ => ?_))
    simp only [subf_apply, mulf_apply, addf_apply]
    refine congrArg₂ (· - ·) (congrArg₂ (· * ·) (congrArg₂ (· + ·) ?_ ?_) (congrArg₂ (· + ·) ?_ ?_)) (congrArg₂ (· + ·) ?_ ?_)
    · exact (LibMidSum.cols_from_apply 0 _ _ r e (lo e) (by show e.val = 0 + e.val; omega)).trans (laneSum_apply v16 r (lo e) _ _ _ _ _)
    · exact (LibMidSum.cols_from_apply 64 _ _ r e (hi e) rfl).trans (laneSum_apply v16 r (hi e) _ _ _ _ _)
    · exact (LibMidSum.cols_from_apply 0 _ _ r e (lo e) (by show e.val = 0 + e.val; omega)).trans (laneSum_apply v16 r (lo e) _ _ _ _ _)
    · exact (LibMidSum.cols_from_apply 64 _ _ r e (hi e) rfl).trans (laneSum_apply v16 r (hi e) _ _ _ _ _)
    · exact (LibMidSum.cols_from_apply 0 _ _ r e (lo e) (by show e.val = 0 + e.val; omega)).trans (laneSqSum_apply v16 r (lo e) _ _ _ _ _)
    · exact (LibMidSum.cols_from_apply 64 _ _ r e (hi e) rfl).trans (laneSqSum_apply v16 r (hi e) _ _ _ _ _)

/-- The first head's stored value at row r of the block. -/
theorem finish_apply (x0 : Vec Ideal S512x26 .f32) (x1 : Vec Ideal S512x13x128 .f32) (x2 : Vec Ideal S512x13 .f32)
    (x3 : Vec Ideal S1x13 .f32) (x4 x5 x6 : Vec Ideal S1x1 .f32) (r : Fin 512) (z : Fin 1) :
    k0_pay1 (F := Ideal) (k0_pay4 x2 x3 x4 x0 x1 x5) x6 (ix2 r z)
      = head (fun f => x0 (ix2 r f)) (fun k l => x1 (ix3 r k l)) (fun j => x2 (ix2 r j)) (fun j => x3 (ix2 (0 : Fin 1) j))
          (x4 (ix2 (0 : Fin 1) (0 : Fin 1))) (x5 (ix2 (0 : Fin 1) (0 : Fin 1))) (x6 (ix2 (0 : Fin 1) (0 : Fin 1))) := by
  simp only [k0_pay1, k0_pay4, addf_apply, mulf_apply, broadcast_apply]
  unfold head
  show Ideal.logistic (_ * _ + _) = _
  rw [pay3_apply x2 x3 x4 x0 x1 r z, word_apply x5, word_apply x6]
  rfl

/-- The second head's stored value at row r of the block. -/
theorem like_apply (x0 : Vec Ideal S512x26 .f32) (x1 : Vec Ideal S512x13x128 .f32) (x2 : Vec Ideal S512x13 .f32)
    (x3 : Vec Ideal S1x13 .f32) (x4 x7 x8 : Vec Ideal S1x1 .f32) (r : Fin 512) (z : Fin 1) :
    k0_pay2 (F := Ideal) (k0_pay3 x2 x3 x4 x0 x1) x7 x8 (ix2 r z)
      = head (fun f => x0 (ix2 r f)) (fun k l => x1 (ix3 r k l)) (fun j => x2 (ix2 r j)) (fun j => x3 (ix2 (0 : Fin 1) j))
          (x4 (ix2 (0 : Fin 1) (0 : Fin 1))) (x7 (ix2 (0 : Fin 1) (0 : Fin 1))) (x8 (ix2 (0 : Fin 1) (0 : Fin 1))) := by
  simp only [k0_pay2, addf_apply, mulf_apply, broadcast_apply]
  unfold head
  show Ideal.logistic (_ * _ + _) = _
  rw [pay3_apply x2 x3 x4 x0 x1 r z, word_apply x7, word_apply x8]
  rfl

end Cert.KernelIdeal.Payload

end
-- ==== Proof.KernelValue.lean ====
/-
  The idealized kernel's two result arrays after the run, as functions of the arrays the region finds.
  Point t of the grid handles rows 512·t … 512·t + 511: the three batch-indexed windows and the two outputs sit at
  block t along the batch axis, the six parameter windows at their one block. What point t writes back to an
  output is, row by row, the row's head of the rows it loaded; the 32 output blocks tile the 16384 rows, so the
  whole result array is the head of every row.
-/
import proofs.«131468_j28733331210610_2_alg».proof.Proof.FrameIdeal
import proofs.«131468_j28733331210610_2_alg».proof.Proof.Payload
import Idealize.ShloMosaic.Lib.Pipeline.Value

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-- The array row that row r of point t's blocks is. -/
def rowAt (t : Fin cfg0.N) (r : Fin 512) : Fin 16384 :=
  ⟨t.val * 512 + r.val, by have := Nat.lt_of_lt_of_eq t.isLt N_0; have := r.isLt; omega⟩

/-! ## The input blocks, read off the arrays -/

theorem blk0 (c : Dev nD) (t : Fin cfg0.N) (r : Fin 512) (f : Fin 26) :
    iblk m c 0 t (ix2 r f) = V m c main_v19 (ix2 (rowAt t r) f) := by
  obtain ⟨e0, e1⟩ := idx0 t
  show V m c main_v19 (((cfg0.win 0).blk t).view.emb (ix2 r f)) = _
  refine congrArg (V m c main_v19) (funext fun a => Fin.ext ?_)
  match a with
  | ⟨0, _⟩ => show win0_0.index t (0 : Fin 2) * 512 + 1 * r.val = t.val * 512 + r.val; omega
  | ⟨1, _⟩ => show win0_0.index t (1 : Fin 2) * 26 + 1 * f.val = f.val; omega

theorem blk1 (c : Dev nD) (t : Fin cfg0.N) (r : Fin 512) (k : Fin 13) (l : Fin 128) :
    iblk m c 1 t (ix3 r k l) = V m c main_v35 (ix3 (rowAt t r) k l) := by
  obtain ⟨e0, e1, e2⟩ := idx1 t
  show V m c main_v35 (((cfg0.win 1).blk t).view.emb (ix3 r k l)) = _
  refine congrArg (V m c main_v35) (funext fun a => Fin.ext ?_)
  match a with
  | ⟨0, _⟩ => show win0_1.index t (0 : Fin 3) * 512 + 1 * r.val = t.val * 512 + r.val; omega
  | ⟨1, _⟩ => show win0_1.index t (1 : Fin 3) * 13 + 1 * k.val = k.val; omega
  | ⟨2, _⟩ => show win0_1.index t (2 : Fin 3) * 128 + 1 * l.val = l.val; omega

theorem blk2 (c : Dev nD) (t : Fin cfg0.N) (r : Fin 512) (j : Fin 13) :
    iblk m c 2 t (ix2 r j) = V m c main_arg1 (ix2 (rowAt t r) j) := by
  obtain ⟨e0, e1⟩ := idx2 t
  show V m c main_arg1 (((cfg0.win 2).blk t).view.emb (ix2 r j)) = _
  refine congrArg (V m c main_arg1) (funext fun a => Fin.ext ?_)
  match a with
  | ⟨0, _⟩ => show win0_2.index t (0 : Fin 2) * 512 + 1 * r.val = t.val * 512 + r.val; omega
  | ⟨1, _⟩ => show win0_2.index t (1 : Fin 2) * 13 + 1 * j.val = j.val; omega

theorem blk3 (c : Dev nD) (t : Fin cfg0.N) (j : Fin 13) :
    iblk m c 3 t (ix2 (0 : Fin 1) j) = V m c main_v36 (ix2 (0 : Fin 1) j) := by
  obtain ⟨e0, e1⟩ := idx3 t
  show V m c main_v36 (((cfg0.win 3).blk t).view.emb (ix2 (0 : Fin 1) j)) = _
  refine congrArg (V m c main_v36) (funext fun a => Fin.ext ?_)
  match a with
  | ⟨0, _⟩ => show win0_3.index t (0 : Fin 2) * 1 + 1 * 0 = 0; omega
  | ⟨1, _⟩ => show win0_3.index t (1 : Fin 2) * 13 + 1 * j.val = j.val; omega

theorem blk4 (c : Dev nD) (t : Fin cfg0.N) :
    iblk m c 4 t (ix2 (0 : Fin 1) (0 : Fin 1)) = V m c main_v37 (ix2 (0 : Fin 1) (0 : Fin 1)) := by
  obtain ⟨e0, e1⟩ := idx4 t
  show V m c main_v37 (((cfg0.win 4).blk t).view.emb (ix2 (0 : Fin 1) (0 : Fin 1))) = _
  refine congrArg (V m c main_v37) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

theorem blk5 (c : Dev nD) (t : Fin cfg0.N) :
    iblk m c 5 t (ix2 (0 : Fin 1) (0 : Fin 1)) = V m c main_arg6 (ix2 (0 : Fin 1) (0 : Fin 1)) := by
  obtain ⟨e0, e1⟩ := idx5 t
  show V m c main_arg6 (((cfg0.win 5).blk t).view.emb (ix2 (0 : Fin 1) (0 : Fin 1))) = _
  refine congrArg (V m c main_arg6) (funext fun a => Fin.ext ?_)
  match a with
  | ⟨0, _⟩ => show win0_5.index t (0 : Fin 2) * 1 + 1 * 0 = 0; omega
  | ⟨1, _⟩ => show win0_5.index t (1 : Fin 2) * 1 + 1 * 0 = 0; omega

theorem blk6 (c : Dev nD) (t : Fin cfg0.N) :
    iblk m c 6 t (ix2 (0 : Fin 1) (0 : Fin 1)) = V m c main_v38 (ix2 (0 : Fin 1) (0 : Fin 1)) := by
  obtain ⟨e0, e1⟩ := idx6 t
  show V m c main_v38 (((cfg0.win 6).blk t).view.emb (ix2 (0 : Fin 1) (0 : Fin 1))) = _
  refine congrArg (V m c main_v38) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

theorem blk7 (c : Dev nD) (t : Fin cfg0.N) :
    iblk m c 7 t (ix2 (0 : Fin 1) (0 : Fin 1)) = V m c main_arg8 (ix2 (0 : Fin 1) (0 : Fin 1)) := by
  obtain ⟨e0, e1⟩ := idx7 t
  show V m c main_arg8 (((cfg0.win 7).blk t).view.emb (ix2 (0 : Fin 1) (0 : Fin 1))) = _
  refine congrArg (V m c main_arg8) (funext fun a => Fin.ext ?_)
  match a with
  | ⟨0, _⟩ => show win0_7.index t (0 : Fin 2) * 1 + 1 * 0 = 0; omega
  | ⟨1, _⟩ => show win0_7.index t (1 : Fin 2) * 1 + 1 * 0 = 0; omega

theorem blk8 (c : Dev nD) (t : Fin cfg0.N) :
    iblk m c 8 t (ix2 (0 : Fin 1) (0 : Fin 1)) = V m c main_v39 (ix2 (0 : Fin 1) (0 : Fin 1)) := by
  obtain ⟨e0, e1⟩ := idx8 t
  show V m c main_v39 (((cfg0.win 8).blk t).view.emb (ix2 (0 : Fin 1) (0 : Fin 1))) = _
  refine congrArg (V m c main_v39) (funext fun a => Fin.ext ?_)
  match a with
  | ⟨0, _⟩ => show win0_8.index t (0 : Fin 2) * 1 + 1 * 0 = 0; omega
  | ⟨1, _⟩ => show win0_8.index t (1 : Fin 2) * 1 + 1 * 0 = 0; omega

/-! ## The result arrays as functions of the arrays the region finds -/

/-- The row an index of a [16384, 1] array lies in. -/
abbrev rowOf (i : S16384x1.Idx) : Fin 16384 := ⟨(i 0).val, (i 0).isLt⟩

/-- A head of every row, from the arrays the region finds: the two gathered embedding arrays (the vector one
    packed), the dense features, the weight row, the bias word, and the head's weight and bias words. -/
def headOf (a0 : S16384x26.Idx → EReal) (a1 : S16384x13x128.Idx → EReal) (a2 : S16384x13.Idx → EReal) (a3 : S1x13.Idx → EReal)
    (a4 a5 a6 : S1x1.Idx → EReal) : S16384x1.Idx → EReal :=
  fun i => Cert.FmRow.head (fun f => a0 (ix2 (rowOf i) f)) (fun k l => a1 (ix3 (rowOf i) k l)) (fun j => a2 (ix2 (rowOf i) j))
    (fun j => a3 (ix2 (0 : Fin 1) j)) (a4 (ix2 (0 : Fin 1) (0 : Fin 1))) (a5 (ix2 (0 : Fin 1) (0 : Fin 1))) (a6 (ix2 (0 : Fin 1) (0 : Fin 1)))

/-- What point t writes back to output window 9: block t of the head of every row. -/
theorem flushed9_eq (c : Dev nD) (t : Fin cfg0.N) :
    (dats m 0 c).flushed 9 t = ((cfg0.win 9).blk t).view.read (Elt Ideal)
      (headOf (V m c main_v19) (V m c main_v35) (V m c main_arg1) (V m c main_v36) (V m c main_v37) (V m c main_arg6) (V m c main_v38)) := by
  show (cfg0.win 9).cut (grid0.coords t) ((dats m 0 c).after 9 t) = _
  rw [after9]
  unfold out9
  rw [View.canon_unit_zero hz2]
  simp only [View.ld_unit_zero (S := S512x26) hz2, View.ld_unit_zero (S := S512x13x128) hz3, View.ld_unit_zero (S := S512x13) hz2,
    View.ld_unit_zero (S := S1x13) hz2, View.ld_unit_zero (S := S1x1) hz2]
  funext j
  obtain ⟨r, z, rfl⟩ : ∃ (r : Fin 512) (z : Fin 1), j = ix2 r z := ⟨j 0, j 1, eq_ix2 j⟩
  obtain ⟨e0, e1⟩ := idx9 t
  refine (Cert.KernelIdeal.Payload.finish_apply (iblk m c 0 t) (iblk m c 1 t) (iblk m c 2 t) (iblk m c 3 t) (iblk m c 4 t) (iblk m c 5 t) (iblk m c 6 t) r z).trans ?_
  have hrow : rowOf (((cfg0.win 9).blk t).view.emb (ix2 r z)) = rowAt t r :=
    Fin.ext (by show win0_9.index t (0 : Fin 2) * 512 + 1 * r.val = t.val * 512 + r.val; omega)
  show _ = headOf _ _ _ _ _ _ _ (((cfg0.win 9).blk t).view.emb (ix2 r z))
  unfold headOf
  rw [hrow]
  have h0 : (fun f => iblk m c 0 t (ix2 r f)) = fun f => V m c main_v19 (ix2 (rowAt t r) f) := funext fun f => blk0 m c t r f
  have h1 : (fun k l => iblk m c 1 t (ix3 r k l)) = fun k l => V m c main_v35 (ix3 (rowAt t r) k l) := funext fun k => funext fun l => blk1 m c t r k l
  have h2 : (fun j => iblk m c 2 t (ix2 r j)) = fun j => V m c main_arg1 (ix2 (rowAt t r) j) := funext fun j => blk2 m c t r j
  have h3 : (fun j => iblk m c 3 t (ix2 (0 : Fin 1) j)) = fun j => V m c main_v36 (ix2 (0 : Fin 1) j) := funext fun j => blk3 m c t j
  rw [h0, h1, h2, h3, blk4 m c t, blk5 m c t, blk6 m c t]

theorem mem_blk9 (t : Fin cfg0.N) (i : S16384x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v40_0).slice (win0_9.rect t)).set ↔ _
  rw [View.set_slice_whole, Rect.mem_set_unit]
  exact Iff.rfl

/-- Every row lies in the block of the point its number divided by 512 names. -/
theorem cover9 (i : S16384x1.Idx) : ∃ t : Fin cfg0.N, (cfg0.win 9).flush t = true ∧ i ∈ ((cfg0.win 9).blk t).view.set := by
  have hi0 : (i 0).val < 16384 := (i 0).isLt
  have hi1 : (i 1).val < 1 := (i 1).isLt
  have hN : (i 0).val / 512 < cfg0.N := by rw [show cfg0.N = 32 from N_0]; omega
  obtain ⟨e0, e1⟩ := idx9 ⟨(i 0).val / 512, hN⟩
  have e0' : win0_9.index ⟨(i 0).val / 512, hN⟩ (0 : Fin 2) = (i 0).val / 512 := e0
  refine ⟨⟨(i 0).val / 512, hN⟩, flush0_9 _, ?_⟩
  rw [mem_blk9]
  intro a
  match a with
  | ⟨0, _⟩ => show win0_9.index ⟨(i 0).val / 512, hN⟩ (0 : Fin 2) * 512 ≤ (i 0).val ∧ (i 0).val < win0_9.index ⟨(i 0).val / 512, hN⟩ (0 : Fin 2) * 512 + 512; omega
  | ⟨1, _⟩ => show win0_9.index ⟨(i 0).val / 512, hN⟩ (1 : Fin 2) * 1 ≤ (i 1).val ∧ (i 1).val < win0_9.index ⟨(i 0).val / 512, hN⟩ (1 : Fin 2) * 1 + 1; omega

/-- The result array after the run. -/
theorem final9 (c : Dev nD) : (dats m 0 c).arrAt 9 cfg0.N
    = headOf (V m c main_v19) (V m c main_v35) (V m c main_arg1) (V m c main_v36) (V m c main_v37) (V m c main_arg6) (V m c main_v38) :=
  (dats m 0 c).arrAt_eq_of_cover 9 _ (fun t _ => flushed9_eq m c t) cover9

/-- What point t writes back to output window 10: block t of the head of every row. -/
theorem flushed10_eq (c : Dev nD) (t : Fin cfg0.N) :
    (dats m 0 c).flushed 10 t = ((cfg0.win 10).blk t).view.read (Elt Ideal)
      (headOf (V m c main_v19) (V m c main_v35) (V m c main_arg1) (V m c main_v36) (V m c main_v37) (V m c main_arg8) (V m c main_v39)) := by
  show (cfg0.win 10).cut (grid0.coords t) ((dats m 0 c).after 10 t) = _
  rw [after10]
  unfold out10
  rw [View.canon_unit_zero hz2]
  simp only [View.ld_unit_zero (S := S512x26) hz2, View.ld_unit_zero (S := S512x13x128) hz3, View.ld_unit_zero (S := S512x13) hz2,
    View.ld_unit_zero (S := S1x13) hz2, View.ld_unit_zero (S := S1x1) hz2]
  funext j
  obtain ⟨r, z, rfl⟩ : ∃ (r : Fin 512) (z : Fin 1), j = ix2 r z := ⟨j 0, j 1, eq_ix2 j⟩
  obtain ⟨e0, e1⟩ := idx10 t
  refine (Cert.KernelIdeal.Payload.like_apply (iblk m c 0 t) (iblk m c 1 t) (iblk m c 2 t) (iblk m c 3 t) (iblk m c 4 t) (iblk m c 7 t) (iblk m c 8 t) r z).trans ?_
  have hrow : rowOf (((cfg0.win 10).blk t).view.emb (ix2 r z)) = rowAt t r :=
    Fin.ext (by show win0_10.index t (0 : Fin 2) * 512 + 1 * r.val = t.val * 512 + r.val; omega)
  show _ = headOf _ _ _ _ _ _ _ (((cfg0.win 10).blk t).view.emb (ix2 r z))
  unfold headOf
  rw [hrow]
  have h0 : (fun f => iblk m c 0 t (ix2 r f)) = fun f => V m c main_v19 (ix2 (rowAt t r) f) := funext fun f => blk0 m c t r f
  have h1 : (fun k l => iblk m c 1 t (ix3 r k l)) = fun k l => V m c main_v35 (ix3 (rowAt t r) k l) := funext fun k => funext fun l => blk1 m c t r k l
  have h2 : (fun j => iblk m c 2 t (ix2 r j)) = fun j => V m c main_arg1 (ix2 (rowAt t r) j) := funext fun j => blk2 m c t r j
  have h3 : (fun j => iblk m c 3 t (ix2 (0 : Fin 1) j)) = fun j => V m c main_v36 (ix2 (0 : Fin 1) j) := funext fun j => blk3 m c t j
  rw [h0, h1, h2, h3, blk4 m c t, blk7 m c t, blk8 m c t]

theorem mem_blk10 (t : Fin cfg0.N) (i : S16384x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v40_1).slice (win0_10.rect t)).set ↔ _
  rw [View.set_slice_whole, Rect.mem_set_unit]
  exact Iff.rfl

/-- Every row lies in the block of the point its number divided by 512 names. -/
theorem cover10 (i : S16384x1.Idx) : ∃ t : Fin cfg0.N, (cfg0.win 10).flush t = true ∧ i ∈ ((cfg0.win 10).blk t).view.set := by
  have hi0 : (i 0).val < 16384 := (i 0).isLt
  have hi1 : (i 1).val < 1 := (i 1).isLt
  have hN : (i 0).val / 512 < cfg0.N := by rw [show cfg0.N = 32 from N_0]; omega
  obtain ⟨e0, e1⟩ := idx10 ⟨(i 0).val / 512, hN⟩
  have e0' : win0_10.index ⟨(i 0).val / 512, hN⟩ (0 : Fin 2) = (i 0).val / 512 := e0
  refine ⟨⟨(i 0).val / 512, hN⟩, flush0_10 _, ?_⟩
  rw [mem_blk10]
  intro a
  match a with
  | ⟨0, _⟩ => show win0_10.index ⟨(i 0).val / 512, hN⟩ (0 : Fin 2) * 512 ≤ (i 0).val ∧ (i 0).val < win0_10.index ⟨(i 0).val / 512, hN⟩ (0 : Fin 2) * 512 + 512; omega
  | ⟨1, _⟩ => show win0_10.index ⟨(i 0).val / 512, hN⟩ (1 : Fin 2) * 1 ≤ (i 1).val ∧ (i 1).val < win0_10.index ⟨(i 0).val / 512, hN⟩ (1 : Fin 2) * 1 + 1; omega

/-- The result array after the run. -/
theorem final10 (c : Dev nD) : (dats m 0 c).arrAt 10 cfg0.N
    = headOf (V m c main_v19) (V m c main_v35) (V m c main_arg1) (V m c main_v36) (V m c main_v37) (V m c main_arg8) (V m c main_v39) :=
  (dats m 0 c).arrAt_eq_of_cover 10 _ (fun t _ => flushed10_eq m c t) cover10

/-! ## The run, read -/

/-- The run re-posted: each result array at the head of every row of the arrays the region finds, the arguments
    unchanged. -/
theorem run : θ_run defs (onTc (τ := τ) (main (F := Ideal))) ⟨m, fun _ => 0, ρ⟩ fun r => ∀ c : Dev nD,
      r.2.mem ((c.tc : Thread nD τ).loc main_v40_0)
        = headOf (V m c main_v19) (V m c main_v35) (V m c main_arg1) (V m c main_v36) (V m c main_v37) (V m c main_arg6) (V m c main_v38)
      ∧ r.2.mem ((c.tc : Thread nD τ).loc main_v40_1)
        = headOf (V m c main_v19) (V m c main_v35) (V m c main_arg1) (V m c main_v36) (V m c main_v37) (V m c main_arg8) (V m c main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 9).trans (final9 m c), ((h c).1 10).trans (final10 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c)⟩) (run_main m ρ)

end Cert.KernelIdeal.KValue

end
-- ==== Proof.HostPrefix.lean ====
/-
  What the region finds in the arrays the host operations wrote. The two gathered embedding arrays are the same
  chains of host operations the reference applies to the same arguments (index normalisation, the index vectors
  joined along a last axis, the gather), so they are named by the reference's own stages and never opened; the
  packed array is the gathered vector embeddings recast row-major from [16384, 26, 64] to [16384, 13, 128]; the
  weight row and the three bias words are the argument arrays recast.
-/
import proofs.«131468_j28733331210610_2_alg».proof.Proof.FrameIdeal
import proofs.«131468_j28733331210610_2_alg».proof.Proof.Gen.ReferenceIdeal.Read
import Idealize.ShloMosaic.Lib.StableHlo.Run

noncomputable section

namespace Cert.KernelIdeal.HostPrefix

open Cert.KernelIdeal Cert.KernelIdeal.Gen Cert.KernelIdeal.Frame
open Idealize.ShloMosaic Idealize.ShloMosaic.TcCoe Idealize.ShloMosaic.StableHlo Idealize.SL.Sem

variable (m : (ℓ : Loc nD τ sig) → Buf (Elt Ideal) ℓ)

/-- A three-operand host operation's result, each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The gathered scalar embeddings: the reference's gather stage of the same arguments. -/
theorem V_v19 (c : Dev nD) : V m c main_v19
    = Cert.ReferenceIdeal.Read.val_main_v23 (F := Ideal) (m ((c : Thread nD τ).loc main_arg0)) (m ((c : Thread nD τ).loc main_arg2)) := by
  dsimp only [V, hostOps0]
  simp (disch := decide) only [after_cons, after_nil, nullary_result', unary_result', binary_result', ternary_result', reshape_result',
    nary3_result', nullary_result_ne', unary_result_ne', binary_result_ne', ternary_result_ne', reshape_result_ne', nary_result_ne']
  rfl

/-- The packed vector embeddings: the reference's gather stage of the same arguments, recast row-major. -/
theorem V_v35 (c : Dev nD) : V m c main_v35
    = shapeCast S16384x13x128 (Cert.ReferenceIdeal.Read.val_main_v41 (F := Ideal) (m ((c : Thread nD τ).loc main_arg0)) (m ((c : Thread nD τ).loc main_arg3)))
        shapeCasts_S16384x26x64_S16384x13x128 := by
  dsimp only [V, hostOps0]
  simp (disch := decide) only [after_cons, after_nil, nullary_result', unary_result', binary_result', ternary_result', reshape_result',
    nary3_result', nullary_result_ne', unary_result_ne', binary_result_ne', ternary_result_ne', reshape_result_ne', nary_result_ne']
  rfl

/-- The weight column recast as a row. -/
theorem V_v36 (c : Dev nD) : V m c main_v36 = shapeCast S1x13 (m ((c : Thread nD τ).loc main_arg4)) shapeCasts_S13x1_S1x13 := by
  dsimp only [V, hostOps0]
  simp (disch := decide) only [after_cons, after_nil, nullary_result', unary_result', binary_result', ternary_result', reshape_result',
    nary3_result', nullary_result_ne', unary_result_ne', binary_result_ne', ternary_result_ne', reshape_result_ne', nary_result_ne']
  rfl

/-- The dense bias recast as a [1, 1] word. -/
theorem V_v37 (c : Dev nD) : V m c main_v37 = shapeCast S1x1 (m ((c : Thread nD τ).loc main_arg5)) shapeCasts_S1_S1x1 := by
  dsimp only [V, hostOps0]
  simp (disch := decide) only [after_cons, after_nil, nullary_result', unary_result', binary_result', ternary_result', reshape_result',
    nary3_result', nullary_result_ne', unary_result_ne', binary_result_ne', ternary_result_ne', reshape_result_ne', nary_result_ne']
  rfl

/-- The first head's bias recast as a [1, 1] word. -/
theorem V_v38 (c : Dev nD) : V m c main_v38 = shapeCast S1x1 (m ((c : Thread nD τ).loc main_arg7)) shapeCasts_S1_S1x1 := by
  dsimp only [V, hostOps0]
  simp (disch := decide) only [after_cons, after_nil, nullary_result', unary_result', binary_result', ternary_result', reshape_result',
    nary3_result', nullary_result_ne', unary_result_ne', binary_result_ne', ternary_result_ne', reshape_result_ne', nary_result_ne']
  rfl

/-- The second head's bias recast as a [1, 1] word. -/
theorem V_v39 (c : Dev nD) : V m c main_v39 = shapeCast S1x1 (m ((c : Thread nD τ).loc main_arg9)) shapeCasts_S1_S1x1 := by
  dsimp only [V, hostOps0]
  simp (disch := decide) only [after_cons, after_nil, nullary_result', unary_result', binary_result', ternary_result', reshape_result',
    nary3_result', nullary_result_ne', unary_result_ne', binary_result_ne', ternary_result_ne', reshape_result_ne', nary_result_ne']
  rfl

end Cert.KernelIdeal.HostPrefix

end
-- ==== Proof.Bridge.lean ====
/-
  The kernel's result arrays are the specification's heads.
  The packed array read at (b, k, l) is the gathered array at (b, 2k + l / 64, l mod 64): both have row-major
  position (13·b + k)·128 + l. The weight row at (0, j) is the weight column at (j, 0), and a [1, 1] word is the
  one entry of its [1] array. With these the head of every row of the arrays the region finds is the
  specification's head of the unpacked arrays (RowHead: folding the two lane halves is summing over all fields).
-/
import proofs.«131468_j28733331210610_2_alg».proof.Proof.KernelValue
import proofs.«131468_j28733331210610_2_alg».proof.Proof.HostPrefix
import proofs.«131468_j28733331210610_2_alg».proof.Proof.RowHead
import Idealize.ShloMosaic.Lib.Pipeline.Value

noncomputable section

namespace Cert.KernelIdeal.Bridge

open Cert.KernelIdeal Cert.KernelIdeal.Gen Cert.KernelIdeal.Frame Cert.KernelIdeal.KValue Cert.KernelIdeal.HostPrefix
open Idealize.ShloMosaic Idealize.ShloMosaic.TcCoe Idealize.ShloMosaic.ValueIdx Idealize.SL.Sem Cert.FmRow

/-- The packed array at (b, k, l) is the gathered array at the field and coordinate that lane holds. -/
theorem packed_apply (g2 : S16384x26x64.Idx → EReal) (b : Fin 16384) (k : Fin 13) (l : Fin 128) :
    shapeCast S16384x13x128 g2 shapeCasts_S16384x26x64_S16384x13x128 (ix3 b k l) = g2 (ix3 b (fieldOf k l) (coordOf l)) := by
  refine shapeCast_apply g2 _ _ _ ?_
  rw [Shape.rowMajor_val_three, Shape.rowMajor_val_three]
  show (b.val * 26 + (2 * k.val + l.val / 64)) * 64 + l.val % 64 = (b.val * 13 + k.val) * 128 + l.val
  have := l.isLt
  omega

/-- The weight row at (0, j) is the weight column at (j, 0). -/
theorem wrow_apply (W : S13x1.Idx → EReal) (j : Fin 13) :
    shapeCast S1x13 W shapeCasts_S13x1_S1x13 (ix2 (0 : Fin 1) j) = W (ix2 j (0 : Fin 1)) := by
  refine shapeCast_apply W _ _ _ ?_
  rw [Shape.rowMajor_val_two, Shape.rowMajor_val_two]
  show j.val * 1 + 0 = 0 * 13 + j.val
  omega

/-- A [1, 1] word is the one entry of its [1] array. -/
theorem word_apply (s : S1.Idx → EReal) :
    shapeCast S1x1 s shapeCasts_S1_S1x1 (ix2 (0 : Fin 1) (0 : Fin 1)) = s (ix1 (0 : Fin 1)) := by
  refine shapeCast_apply s _ _ _ ?_
  rw [Shape.rowMajor_val_one, Shape.rowMajor_val_two]
  show 0 = 0 * 1 + 0
  rfl

/-- The head of every row of the recast arrays is the specification's head of the arrays themselves. -/
theorem headOf_eq (g1 : S16384x26.Idx → EReal) (g2 : S16384x26x64.Idx → EReal) (dense : S16384x13.Idx → EReal)
    (W : S13x1.Idx → EReal) (bd : S1.Idx → EReal) (wh : S1x1.Idx → EReal) (bh : S1.Idx → EReal) :
    headOf g1 (shapeCast S16384x13x128 g2 shapeCasts_S16384x26x64_S16384x13x128) dense (shapeCast S1x13 W shapeCasts_S13x1_S1x13)
        (shapeCast S1x1 bd shapeCasts_S1_S1x1) wh (shapeCast S1x1 bh shapeCasts_S1_S1x1)
      = Cert.FmSpec.headArr g1 g2 dense W bd wh bh := by
  funext i
  unfold headOf Cert.FmSpec.headArr
  have hp : (fun k l => shapeCast S16384x13x128 g2 shapeCasts_S16384x26x64_S16384x13x128 (ix3 (rowOf i) k l))
      = fun k l => g2 (ix3 (rowOf i) (fieldOf k l) (coordOf l)) := funext fun k => funext fun l => packed_apply g2 (rowOf i) k l
  have hw : (fun j => shapeCast S1x13 W shapeCasts_S13x1_S1x13 (ix2 (0 : Fin 1) j)) = fun j => W (ix2 j (0 : Fin 1)) :=
    funext fun j => wrow_apply W j
  rw [hp, hw, word_apply bd, word_apply bh]
  exact Cert.FmRow.head_eq_spec g1 g2 dense W bd wh bh (rowOf i)

variable (m : (ℓ : Loc nD τ sig) → Buf (Elt Ideal) ℓ)

/-- The first result array the run ends with is the specification's first head of the launch arguments. -/
theorem finish_eq (c : Dev nD) :
    headOf (V m c main_v19) (V m c main_v35) (V m c main_arg1) (V m c main_v36) (V m c main_v37) (V m c main_arg6) (V m c main_v38)
      = Cert.FmSpec.headArr
          (Cert.ReferenceIdeal.Read.val_main_v23 (F := Ideal) (m ((c : Thread nD τ).loc main_arg0)) (m ((c : Thread nD τ).loc main_arg2)))
          (Cert.ReferenceIdeal.Read.val_main_v41 (F := Ideal) (m ((c : Thread nD τ).loc main_arg0)) (m ((c : Thread nD τ).loc main_arg3)))
          (m ((c : Thread nD τ).loc main_arg1)) (m ((c : Thread nD τ).loc main_arg4)) (m ((c : Thread nD τ).loc main_arg5))
          (m ((c : Thread nD τ).loc main_arg6)) (m ((c : Thread nD τ).loc main_arg7)) := by
  rw [V_v19, V_v35, V_main_arg1, V_v36, V_v37, V_main_arg6, V_v38]
  exact headOf_eq _ _ _ _ _ _ _

/-- The second result array likewise. -/
theorem like_eq (c : Dev nD) :
    headOf (V m c main_v19) (V m c main_v35) (V m c main_arg1) (V m c main_v36) (V m c main_v37) (V m c main_arg8) (V m c main_v39)
      = Cert.FmSpec.headArr
          (Cert.ReferenceIdeal.Read.val_main_v23 (F := Ideal) (m ((c : Thread nD τ).loc main_arg0)) (m ((c : Thread nD τ).loc main_arg2)))
          (Cert.ReferenceIdeal.Read.val_main_v41 (F := Ideal) (m ((c : Thread nD τ).loc main_arg0)) (m ((c : Thread nD τ).loc main_arg3)))
          (m ((c : Thread nD τ).loc main_arg1)) (m ((c : Thread nD τ).loc main_arg4)) (m ((c : Thread nD τ).loc main_arg5))
          (m ((c : Thread nD τ).loc main_arg8)) (m ((c : Thread nD τ).loc main_arg9)) := by
  rw [V_v19, V_v35, V_main_arg1, V_v36, V_v37, V_main_arg8, V_v39]
  exact headOf_eq _ _ _ _ _ _ _

end Cert.KernelIdeal.Bridge

end
-- ==== Proof.RefSide.lean ====
/-
  The reference program at the extended reals computes the factorization-machine heads of the specification.
  Row by row: the dense inner product plus its bias, plus the sum of the 26 first-order embeddings, plus one half of the
  sum over the 64 coordinates of (the square of the field sum minus the field sum of squares); each head is
  1 / (1 + exp (-(logit * weight + bias))), which is the logistic function. The two gathered embedding arrays stay
  opaque: every statement below reads them at indices and never looks inside them. The additions and products occur
  in the same order in the program and in the specification, so after each operation is read at its index the two sides
  are the same term; the sums' initial value is the zero word, and a sum over a one-element axis is its single term.
-/
import proofs.«131468_j28733331210610_2_alg».proof.Proof.Gen.ReferenceIdeal.Read
import proofs.«131468_j28733331210610_2_alg».proof.Proof.Spec
import Idealize.ShloMosaic.Lib.ValueIdx
import Idealize.ShloMosaic.PureOps.Ideal.Laws
import Idealize.ShloMosaic.PureOps.IdealRules

noncomputable section

namespace Cert.ReferenceIdeal.RefValue

open Cert.ReferenceIdeal Cert.ReferenceIdeal.Read Idealize.ShloMosaic Idealize.ShloMosaic.ValueIdx

/-! ## The index each operation reads its operand at, as an index built from coordinates -/

/-- The dense product at row `b` reads the features at `(b, k)`. -/
theorem lidx_v2 (b : Fin 16384) (z : Fin 1) (k : Fin 13) : lidx_main_v2 (ix2 b z) k = ix2 b k :=
  funext fun a => by match a with | ⟨0, _⟩ => rfl | ⟨1, _⟩ => rfl
/-- … and the weight column at `(k, z)`. -/
theorem ridx_v2 (b : Fin 16384) (z : Fin 1) (k : Fin 13) : ridx_main_v2 (ix2 b z) k = ix2 k z :=
  funext fun a => by match a with | ⟨0, _⟩ => rfl | ⟨1, _⟩ => rfl
/-- A bias of one element is read at its only index. -/
theorem idx_v3 (i : S1x1.Idx) : idx_main_v3 i = ix1 (0 : Fin 1) :=
  funext fun a => by match a with | ⟨0, _⟩ => rfl
theorem idx_v53 (i : S1x1.Idx) : idx_main_v53 i = ix1 (0 : Fin 1) :=
  funext fun a => by match a with | ⟨0, _⟩ => rfl
theorem idx_v63 (i : S1x1.Idx) : idx_main_v63 i = ix1 (0 : Fin 1) :=
  funext fun a => by match a with | ⟨0, _⟩ => rfl
/-- A per-row value broadcast along the unit axis is read at the row. -/
theorem idx_v25 (b : Fin 16384) (z : Fin 1) : idx_main_v25 (ix2 b z) = ix1 b :=
  funext fun a => by match a with | ⟨0, _⟩ => rfl
theorem idx_v48 (b : Fin 16384) (z : Fin 1) : idx_main_v48 (ix2 b z) = ix1 b :=
  funext fun a => by match a with | ⟨0, _⟩ => rfl
/-- The first-order sum at row `b` reads field `f` at `(b, f)`. -/
theorem idx_v24 (b : Fin 16384) (f : Fin 26) : idx_main_v24 (ix1 b) f = ix2 b f :=
  funext fun a => by match a with | ⟨0, _⟩ => rfl | ⟨1, _⟩ => rfl
/-- The sum over the coordinates at row `b` reads coordinate `e` at `(b, e)`. -/
theorem idx_v47 (b : Fin 16384) (e : Fin 64) : idx_main_v47 (ix1 b) e = ix2 b e :=
  funext fun a => by match a with | ⟨0, _⟩ => rfl | ⟨1, _⟩ => rfl
/-- The field sums at `(b, e)` read field `f` at `(b, f, e)`. -/
theorem idx_v42 (b : Fin 16384) (e : Fin 64) (f : Fin 26) : idx_main_v42 (ix2 b e) f = ix3 b f e :=
  funext fun a => by match a with | ⟨0, _⟩ => rfl | ⟨1, _⟩ => rfl | ⟨2, _⟩ => rfl
theorem idx_v45 (b : Fin 16384) (e : Fin 64) (f : Fin 26) : idx_main_v45 (ix2 b e) f = ix3 b f e :=
  funext fun a => by match a with | ⟨0, _⟩ => rfl | ⟨1, _⟩ => rfl | ⟨2, _⟩ => rfl
/-- A head's product at row `b` reads the logit at `(b, k)` and the head's weight at `(k, z)`. -/
theorem lidx_v52 (b : Fin 16384) (z k : Fin 1) : lidx_main_v52 (ix2 b z) k = ix2 b k :=
  funext fun a => by match a with | ⟨0, _⟩ => rfl | ⟨1, _⟩ => rfl
theorem ridx_v52 (b : Fin 16384) (z k : Fin 1) : ridx_main_v52 (ix2 b z) k = ix2 k z :=
  funext fun a => by match a with | ⟨0, _⟩ => rfl | ⟨1, _⟩ => rfl
theorem lidx_v62 (b : Fin 16384) (z k : Fin 1) : lidx_main_v62 (ix2 b z) k = ix2 b k :=
  funext fun a => by match a with | ⟨0, _⟩ => rfl | ⟨1, _⟩ => rfl
theorem ridx_v62 (b : Fin 16384) (z k : Fin 1) : ridx_main_v62 (ix2 b z) k = ix2 k z :=
  funext fun a => by match a with | ⟨0, _⟩ => rfl | ⟨1, _⟩ => rfl

/-- The word of the literal 1.0 is the extended real 1. -/
theorem one_f32 : Ideal.ofBits .f32 0x3F800000#32 = 1 := IdealRules.sign_bit.ideal_onePat .f32

/-! ## The parts of the logit -/

/-- The dense part at row `b`: the inner product of the row's 13 features with the weight column, plus the bias. -/
theorem dense_eq (x1 : (⟨S16384x13, .f32⟩ : BufTy).Contents (Elt Ideal)) (x4 : (⟨S13x1, .f32⟩ : BufTy).Contents (Elt Ideal)) (x5 : (⟨S1, .f32⟩ : BufTy).Contents (Elt Ideal)) (b : Fin 16384) (z : Fin 1) :
    val_main_v5 (F := Ideal) x1 x4 x5 (ix2 b z)
      = (∑ k : Fin 13, x1 (ix2 b k) * x4 (ix2 k (0 : Fin 1))) + x5 (ix1 (0 : Fin 1)) := by
  obtain rfl : z = 0 := Subsingleton.elim _ _
  rw [val_main_v5_apply, val_main_v2_apply, val_main_v4_apply, val_main_v3_apply, idx_v3, Ideal.addf_def]
  exact congrArg (· + x5 (ix1 (0 : Fin 1))) (Finset.sum_congr rfl fun k _ => by rw [lidx_v2, ridx_v2])

/-- The first-order part at row `b`: the sum of the 26 gathered scalar embeddings (the sum starts from zero). -/
theorem first_eq (x0 : (⟨S16384x26, .i32⟩ : BufTy).Contents (Elt Ideal)) (x2 : (⟨S26x100000x1, .f32⟩ : BufTy).Contents (Elt Ideal)) (b : Fin 16384) :
    val_main_v24 (F := Ideal) x0 x2 (ix1 b) = ∑ f : Fin 26, val_main_v23 (F := Ideal) x0 x2 (ix2 b f) := by
  rw [val_main_v24_apply, val_main_cst_apply, Ideal.ofBits_def, Ideal.ofBits_zero_f32, zero_add]
  generalize val_main_v23 (F := Ideal) x0 x2 = g1
  exact Finset.sum_congr rfl fun f _ => by rw [idx_v24]

/-- The sum over the fields of the gathered vector embeddings, at row `b` and coordinate `e`. -/
theorem fieldSum_eq (x0 : (⟨S16384x26, .i32⟩ : BufTy).Contents (Elt Ideal)) (x3 : (⟨S26x100000x64, .f32⟩ : BufTy).Contents (Elt Ideal)) (b : Fin 16384) (e : Fin 64) :
    val_main_v42 (F := Ideal) x0 x3 (ix2 b e) = Cert.FmSpec.fieldSum (val_main_v41 (F := Ideal) x0 x3) b e := by
  rw [val_main_v42_apply, val_main_cst_8_apply, Ideal.ofBits_def, Ideal.ofBits_zero_f32, zero_add]
  generalize val_main_v41 (F := Ideal) x0 x3 = g2
  unfold Cert.FmSpec.fieldSum
  exact Finset.sum_congr rfl fun f _ => by rw [idx_v42]

/-- The sum over the fields of the squares, at row `b` and coordinate `e`. -/
theorem fieldSqSum_eq (x0 : (⟨S16384x26, .i32⟩ : BufTy).Contents (Elt Ideal)) (x3 : (⟨S26x100000x64, .f32⟩ : BufTy).Contents (Elt Ideal)) (b : Fin 16384) (e : Fin 64) :
    val_main_v45 (F := Ideal) x0 x3 (ix2 b e) = Cert.FmSpec.fieldSqSum (val_main_v41 (F := Ideal) x0 x3) b e := by
  rw [val_main_v45_apply, val_main_cst_9_apply, Ideal.ofBits_def, Ideal.ofBits_zero_f32, zero_add]
  unfold Cert.FmSpec.fieldSqSum
  refine Finset.sum_congr rfl fun f _ => ?_
  rw [idx_v45, val_main_v44_apply, Ideal.mulf_def]

/-- The second-order sum at row `b`: over the 64 coordinates, the square of the field sum minus the field sum of
    squares. -/
theorem second_eq (x0 : (⟨S16384x26, .i32⟩ : BufTy).Contents (Elt Ideal)) (x3 : (⟨S26x100000x64, .f32⟩ : BufTy).Contents (Elt Ideal)) (b : Fin 16384) :
    val_main_v47 (F := Ideal) x0 x3 (ix1 b)
      = ∑ e : Fin 64, (Cert.FmSpec.fieldSum (val_main_v41 (F := Ideal) x0 x3) b e * Cert.FmSpec.fieldSum (val_main_v41 (F := Ideal) x0 x3) b e
          - Cert.FmSpec.fieldSqSum (val_main_v41 (F := Ideal) x0 x3) b e) := by
  rw [val_main_v47_apply, val_main_cst_10_apply, Ideal.ofBits_def, Ideal.ofBits_zero_f32, zero_add]
  refine Finset.sum_congr rfl fun e _ => ?_
  rw [idx_v47, val_main_v46_apply, val_main_v43_apply, fieldSum_eq, fieldSqSum_eq, Ideal.subf_def, Ideal.mulf_def]

/-- The logit at row `b`: dense part, first-order part and one half of the second-order sum, added in this order. -/
theorem logit_eq (x0 : (⟨S16384x26, .i32⟩ : BufTy).Contents (Elt Ideal)) (x1 : (⟨S16384x13, .f32⟩ : BufTy).Contents (Elt Ideal)) (x2 : (⟨S26x100000x1, .f32⟩ : BufTy).Contents (Elt Ideal)) (x3 : (⟨S26x100000x64, .f32⟩ : BufTy).Contents (Elt Ideal)) (x4 : (⟨S13x1, .f32⟩ : BufTy).Contents (Elt Ideal)) (x5 : (⟨S1, .f32⟩ : BufTy).Contents (Elt Ideal)) (b : Fin 16384) (z : Fin 1) :
    val_main_v51 (F := Ideal) x0 x1 x2 x3 x4 x5 (ix2 b z)
      = Cert.FmSpec.logit (val_main_v23 (F := Ideal) x0 x2) (val_main_v41 (F := Ideal) x0 x3) x1 x4 x5 b := by
  rw [val_main_v51_apply, val_main_v26_apply, val_main_v50_apply, val_main_v49_apply, val_main_cst_11_apply,
    val_main_v25_apply, val_main_v48_apply, idx_v25, idx_v48, first_eq, second_eq, dense_eq]
  generalize val_main_v23 (F := Ideal) x0 x2 = g1
  generalize val_main_v41 (F := Ideal) x0 x3 = g2
  simp only [Ideal.addf_def, Ideal.mulf_def, Ideal.ofBits_def]
  rfl

/-! ## The two heads -/

/-- The first result is the head with the first weight and bias: 1 / (1 + exp (-(logit * weight + bias))) is the
    logistic function of logit * weight + bias. -/
theorem finish_eq (x0 : (⟨S16384x26, .i32⟩ : BufTy).Contents (Elt Ideal)) (x1 : (⟨S16384x13, .f32⟩ : BufTy).Contents (Elt Ideal)) (x2 : (⟨S26x100000x1, .f32⟩ : BufTy).Contents (Elt Ideal)) (x3 : (⟨S26x100000x64, .f32⟩ : BufTy).Contents (Elt Ideal)) (x4 : (⟨S13x1, .f32⟩ : BufTy).Contents (Elt Ideal)) (x5 : (⟨S1, .f32⟩ : BufTy).Contents (Elt Ideal)) (x6 : (⟨S1x1, .f32⟩ : BufTy).Contents (Elt Ideal)) (x7 : (⟨S1, .f32⟩ : BufTy).Contents (Elt Ideal)) :
    val_main_v61 (F := Ideal) x0 x1 x2 x3 x4 x5 x6 x7
      = Cert.FmSpec.headArr (val_main_v23 (F := Ideal) x0 x2) (val_main_v41 (F := Ideal) x0 x3) x1 x4 x5 x6 x7 := by
  funext i
  obtain ⟨b, z, rfl⟩ : ∃ (b : Fin 16384) (z : Fin 1), i = ix2 b z := ⟨i 0, i 1, eq_ix2 i⟩
  obtain rfl : z = 0 := Subsingleton.elim _ _
  rw [val_main_v61_apply, val_main_v60_apply, val_main_cst_13_apply, val_main_v59_apply, val_main_v58_apply,
    val_main_cst_12_apply, val_main_v57_apply, val_main_v56_apply, val_main_v55_apply, val_main_v54_apply,
    val_main_v53_apply, idx_v53, val_main_v52_apply, Fin.sum_univ_one, lidx_v52, ridx_v52, logit_eq]
  generalize val_main_v23 (F := Ideal) x0 x2 = g1
  generalize val_main_v41 (F := Ideal) x0 x3 = g2
  simp only [Ideal.hostDivf_def, Ideal.addf_def, Ideal.hostUnary_exp_def, Ideal.hostNegf_def, Ideal.negf_def, Ideal.ofBits_def,
    one_f32]
  rfl

/-- The second result is the head with the second weight and bias. -/
theorem like_eq (x0 : (⟨S16384x26, .i32⟩ : BufTy).Contents (Elt Ideal)) (x1 : (⟨S16384x13, .f32⟩ : BufTy).Contents (Elt Ideal)) (x2 : (⟨S26x100000x1, .f32⟩ : BufTy).Contents (Elt Ideal)) (x3 : (⟨S26x100000x64, .f32⟩ : BufTy).Contents (Elt Ideal)) (x4 : (⟨S13x1, .f32⟩ : BufTy).Contents (Elt Ideal)) (x5 : (⟨S1, .f32⟩ : BufTy).Contents (Elt Ideal)) (x8 : (⟨S1x1, .f32⟩ : BufTy).Contents (Elt Ideal)) (x9 : (⟨S1, .f32⟩ : BufTy).Contents (Elt Ideal)) :
    val_main_v71 (F := Ideal) x0 x1 x2 x3 x4 x5 x8 x9
      = Cert.FmSpec.headArr (val_main_v23 (F := Ideal) x0 x2) (val_main_v41 (F := Ideal) x0 x3) x1 x4 x5 x8 x9 := by
  funext i
  obtain ⟨b, z, rfl⟩ : ∃ (b : Fin 16384) (z : Fin 1), i = ix2 b z := ⟨i 0, i 1, eq_ix2 i⟩
  obtain rfl : z = 0 := Subsingleton.elim _ _
  rw [val_main_v71_apply, val_main_v70_apply, val_main_cst_15_apply, val_main_v69_apply, val_main_v68_apply,
    val_main_cst_14_apply, val_main_v67_apply, val_main_v66_apply, val_main_v65_apply, val_main_v64_apply,
    val_main_v63_apply, idx_v63, val_main_v62_apply, Fin.sum_univ_one, lidx_v62, ridx_v62, logit_eq]
  generalize val_main_v23 (F := Ideal) x0 x2 = g1
  generalize val_main_v41 (F := Ideal) x0 x3 = g2
  simp only [Ideal.hostDivf_def, Ideal.addf_def, Ideal.hostUnary_exp_def, Ideal.hostNegf_def, Ideal.negf_def, Ideal.ofBits_def,
    one_f32]
  rfl

end Cert.ReferenceIdeal.RefValue

end
-- ==== Proof.lean ====
/-
  The certificate of the factorization-machine kernel against its reference.

  Both programs gather, for each of 16384 batch rows, one scalar and one 64-vector embedding per field (26 fields)
  by the same host operations, and compute two heads: the logistic function of
      (dense·W + b) + Σ_f e1[f] + ½ Σ_e ((Σ_f e2[f,e])² − Σ_f e2[f,e]²)
  times a head weight plus a head bias. The kernel receives the vector embeddings packed two fields to a 128-lane
  row, sums the 13 lane rows and folds the two lane halves; on the extended reals that is the sum over the 26
  fields regrouped into even and odd fields, which needs only that finite sums may be regrouped. The reference
  spells the logistic function as 1 / (1 + exp(−x)), which is its definition. No use of finiteness is made.

  The frames: each kernel program is its host operations followed by one region over 32 grid points whose body
  loads whole blocks and stores whole blocks (FrameBits, FrameIdeal); the reference's is its run with the results
  dropped. The ideal pass rewrote nothing, so the idealization claim is trivial.
-/
import proofs.«131468_j28733331210610_2_alg».proof.Defs
import proofs.«131468_j28733331210610_2_alg».proof.Proof.Gen.Kernel
import proofs.«131468_j28733331210610_2_alg».proof.Proof.Gen.KernelIdeal
import proofs.«131468_j28733331210610_2_alg».proof.Proof.Gen.ReferenceIdeal
import proofs.«131468_j28733331210610_2_alg».proof.Proof.Gen.Pre_finite_inputs
import proofs.«131468_j28733331210610_2_alg».proof.Proof.Gen.ReferenceIdeal.Run
import proofs.«131468_j28733331210610_2_alg».proof.Proof.Gen.ReferenceIdeal.Read
import proofs.«131468_j28733331210610_2_alg».proof.Proof.FrameBits
import proofs.«131468_j28733331210610_2_alg».proof.Proof.FrameIdeal
import proofs.«131468_j28733331210610_2_alg».proof.Proof.KernelValue
import proofs.«131468_j28733331210610_2_alg».proof.Proof.Bridge
import proofs.«131468_j28733331210610_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference's frame: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The two idealized programs, from memories agreeing on the arguments, end with the specification's two heads of
    the arguments: the kernel by its value read off the frame run and the bridge, the reference by its run read
    stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.FmSpec.headArr
      (Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.FmSpec.headArr
      (Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · exact (θ_run Cert.KernelIdeal.defs _ _).mono (fun _ h c =>
      ⟨(h c).1.trans (Cert.KernelIdeal.Bridge.finish_eq m c), (h c).2.1.trans (Cert.KernelIdeal.Bridge.like_eq m c), (h c).2.2⟩)
      (Cert.KernelIdeal.KValue.run m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v61_eq, Cert.ReferenceIdeal.RefValue.finish_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1]
    · rw [Cert.ReferenceIdeal.Read.val_main_v71_eq, Cert.ReferenceIdeal.RefValue.like_eq,
        (hagree c).1, (hagree c).2.1, (hagree c).2.2.1, (hagree c).2.2.2.1, (hagree c).2.2.2.2.1, (hagree c).2.2.2.2.2.1,
        (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
